-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S2x1600000 : Shape := ⟨2, ![2, 1600000]⟩
abbrev S128x1024 : Shape := ⟨2, ![128, 1024]⟩
abbrev S128 : Shape := ⟨1, ![128]⟩
abbrev S128x128 : Shape := ⟨2, ![128, 128]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128 .f32) (main_arg6 : FVec F S128x128 .f32) (main_arg7 : FVec F S128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x1024 .f32) (main_arg1 : IVec S2x1600000 32) (main_arg2 : FVec F S128x1024 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128x128 .f32) (main_arg10 : FVec F S128 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x1024 : Shape := ⟨2, ![50000, 1024]⟩
abbrev S2x1600000 : Shape := ⟨2, ![2, 1600000]⟩
abbrev S128x1024 : Shape := ⟨2, ![128, 1024]⟩
abbrev S128 : Shape := ⟨1, ![128]⟩
abbrev S128x128 : Shape := ⟨2, ![128, 128]⟩
abbrev S1024x128 : Shape := ⟨2, ![1024, 128]⟩
abbrev S50000x128 : Shape := ⟨2, ![50000, 128]⟩
abbrev S2000x1024 : Shape := ⟨2, ![2000, 1024]⟩
abbrev S2000x128 : Shape := ⟨2, ![2000, 128]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S2000x1 : Shape := ⟨2, ![2000, 1]⟩
abbrev S2000 : Shape := ⟨1, ![2000]⟩

abbrev nBuf : Space → Nat
  | .hbm => 46
  | .vmem => 21
  | .smem => 0
  | _ => 0

abbrev bufTy : (tb : Table) → Fin (tcTables nBuf tb) → BufTy
  | .hbm, ⟨0, _⟩ => ⟨S50000x1024, .f32⟩
  | .hbm, ⟨1, _⟩ => ⟨S2x1600000, .i32⟩
  | .hbm, ⟨2, _⟩ => ⟨S128x1024, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1024x128, .f32⟩
  | .hbm, ⟨12, _⟩ => ⟨S1024x128, .bf16⟩
  | .hbm, ⟨13, _⟩ => ⟨S50000x128, .bf16⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .bf16⟩
  | .hbm, ⟨27, _⟩ => ⟨S1600000x128, .f32⟩
  | .hbm, ⟨28, _⟩ => ⟨S_, .f32⟩
  | .hbm, ⟨29, _⟩ => ⟨S50000x128, .f32⟩
  | .hbm, ⟨30, _⟩ => ⟨S1600000x1, .i32⟩
  | .hbm, ⟨31, _⟩ => ⟨S50000x128, .f32⟩
  | .hbm, ⟨32, _⟩ => ⟨S_, .f32⟩
  | .hbm, ⟨33, _⟩ => ⟨S1600000, .f32⟩
  | .hbm, ⟨34, _⟩ => ⟨S_, .f32⟩
  | .hbm, ⟨35, _⟩ => ⟨S50000, .f32⟩
  | .hbm, ⟨36, _⟩ => ⟨S1600000x1, .i32⟩
  | .hbm, ⟨37, _⟩ => ⟨S50000, .f32⟩
  | .hbm, ⟨38, _⟩ => ⟨S50000x1, .f32⟩
  | .hbm, ⟨39, _⟩ => ⟨S128x128, .f32⟩
  | .hbm, ⟨40, _⟩ => ⟨S128x128, .bf16⟩
  | .hbm, ⟨41, _⟩ => ⟨S128x128, .f32⟩
  | .hbm, ⟨42, _⟩ => ⟨S128x128, .bf16⟩
  | .hbm, ⟨43, _⟩ => ⟨S128x128, .f32⟩
  | .hbm, ⟨44, _⟩ => ⟨S128x128, .bf16⟩
  | .hbm, ⟨45, _⟩ => ⟨S1x128, .f32⟩
  | .local _ .vmem, ⟨0, _⟩ => ⟨S2000x1024, .f32⟩
  | .local _ .vmem, ⟨1, _⟩ => ⟨S2000x1024, .f32⟩
  | .local _ .vmem, ⟨2, _⟩ => ⟨S1024x128, .bf16⟩
  | .local _ .vmem, ⟨3, _⟩ => ⟨S128, .f32⟩
  | .local _ .vmem, ⟨4, _⟩ => ⟨S2000x128, .bf16⟩
  | .local _ .vmem, ⟨5, _⟩ => ⟨S2000x128, .bf16⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x128, .bf16⟩
  | .local _ .vmem, ⟨11, _⟩ => ⟨S2000x128, .bf16⟩
  | .local _ .vmem, ⟨12, _⟩ => ⟨S128x128, .bf16⟩
  | .local _ .vmem, ⟨13, _⟩ => ⟨S128, .f32⟩
  | .local _ .vmem, ⟨14, _⟩ => ⟨S128x128, .bf16⟩
  | .local _ .vmem, ⟨15, _⟩ => ⟨S128, .f32⟩
  | .local _ .vmem, ⟨16, _⟩ => ⟨S128, .f32⟩
  | .local _ .vmem, ⟨17, _⟩ => ⟨S128x128, .bf16⟩
  | .local _ .vmem, ⟨18, _⟩ => ⟨S128, .f32⟩
  | .local _ .vmem, ⟨19, _⟩ => ⟨S1x128, .f32⟩
  | .local _ .vmem, ⟨20, _⟩ => ⟨S1x128, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v60 : BitVec 1 := Scalar.cmpi .eq arg0 c24_i32
  let v61 : BitVec 32 := Scalar.extui v60
  let c0_i32_26 : BitVec 32 := 0#32
  let v62 : BitVec 1 := Scalar.cmpi .ne v61 c0_i32_26
  v62

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  transposes_S128x1024_S1024x128_1_0 : S128x1024.Transposes [1, 0] S1024x128
  bitsLt_bf16_f32 : FTy.bits .bf16 < FTy.bits .f32
  inb_S2000x1024_S2000x1024_0_0 : ∀ a, (![0, 0] : Fin 2 → Nat) a + S2000x1024.size a ≤ S2000x1024.size a
  h_S2000x1024 : 0 < S2000x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  transposes_S128x128_S128x128_1_0 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S2000x128_S2000 : S2000x128.Reduces [1] S2000
  shapeCasts_S2000_S2000x1 : S2000.ShapeCasts S2000x1
  reduces_S2000x128_S128 : S2000x128.Reduces [0] S128
  dot_S2000x1024_S1024x128_S2000x128_1_0_0_1_n_n_wf : DotDims.WF S2000x1024 S1024x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S2000x128_S128x128_S2000x128_1_0_0_1_n_n_wf : DotDims.WF S2000x128 S128x128 S2000x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)

variable [Facts₀]

def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v29) S1x128.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | ⟨_ + 11, h⟩ => absurd h (Nat.not_lt.2 (Nat.le_add_left _ _))

class Facts : Prop extends Facts₀ where

variable [Facts]
-- ==== ReferenceIdeal.lean ====
abbrev S50000x1024 : Shape := ⟨2, ![50000, 1024]⟩
abbrev S2x1600000 : Shape := ⟨2, ![2, 1600000]⟩
abbrev S128x1024 : Shape := ⟨2, ![128, 1024]⟩
abbrev S128 : Shape := ⟨1, ![128]⟩
abbrev S128x128 : Shape := ⟨2, ![128, 128]⟩
abbrev S1024x128 : Shape := ⟨2, ![1024, 128]⟩
abbrev S50000x128 : Shape := ⟨2, ![50000, 128]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩

abbrev nBuf : Space → Nat
  | .hbm => 98
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S2x1600000, .i32⟩
  | .hbm, ⟨2, _⟩ => ⟨S128x1024, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1024x128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S_, .f32⟩
  | .hbm, ⟨17, _⟩ => ⟨S50000x128, .f32⟩
  | .hbm, ⟨18, _⟩ => ⟨S50000x128, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S50000x128, .f32⟩
  | .hbm, ⟨34, _⟩ => ⟨S1600000x1, .i32⟩
  | .hbm, ⟨35, _⟩ => ⟨S50000x128, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S50000, .f32⟩
  | .hbm, ⟨40, _⟩ => ⟨S1600000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S128x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S128x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000, .f32⟩
  | .hbm, ⟨58, _⟩ => ⟨S50000x1, .f32⟩
  | .hbm, ⟨59, _⟩ => ⟨S_, .f32⟩
  | .hbm, ⟨60, _⟩ => ⟨S50000x1, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000, .f32⟩
  | .hbm, ⟨67, _⟩ => ⟨S50000x1, .f32⟩
  | .hbm, ⟨68, _⟩ => ⟨S_, .f32⟩
  | .hbm, ⟨69, _⟩ => ⟨S50000x1, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x1, .f32⟩
  | .hbm, ⟨75, _⟩ => ⟨S50000x1, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S128, .f32⟩
  | .hbm, ⟨90, _⟩ => ⟨S1x128, .f32⟩
  | .hbm, ⟨91, _⟩ => ⟨S_, .f32⟩
  | .hbm, ⟨92, _⟩ => ⟨S1x128, .f32⟩
  | .hbm, ⟨93, _⟩ => ⟨S1x128, .f32⟩
  | .hbm, ⟨94, _⟩ => ⟨S128x128, .f32⟩
  | .hbm, ⟨95, _⟩ => ⟨S1x128, .f32⟩
  | .hbm, ⟨96, _⟩ => ⟨S1x128, .f32⟩
  | .hbm, ⟨97, _⟩ => ⟨S1x128, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_cst_9 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  transposes_S128x1024_S1024x128_1_0 : S128x1024.Transposes [1, 0] S1024x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  reducesTo_S50000x128_S50000_d1 : S50000x128.ReducesTo [1] S50000
  h_S_ : 0 < S_.numel
  bcast_S_S50000x1 : S_.BroadcastsInDim S50000x1 (![] : Fin 0 → Fin S50000x1.rank)
  reducesTo_S50000x128_S128_d0 : S50000x128.ReducesTo [0] S128
  bcast_S_S1x128 : S_.BroadcastsInDim S1x128 (![] : Fin 0 → Fin S1x128.rank)
  dot_S50000x1024_S1024x128_S50000x128_1_0_0_1_n_n_wf : DotDims.WF S50000x1024 S1024x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  dot_S1x128_S128x128_S1x128_1_0_0_1_n_n_wf : DotDims.WF S1x128 S128x128 S1x128 [1] [0] [0] [1] [] []

variable [Facts₀]

def dot_S50000x1024_S1024x128_S50000x128_1_0_0_1_n_n : DotDims S50000x1024 S1024x128 S50000x128 where
  lhsContracting := [1]
  rhsContracting := [0]
  lhsNonContracting := [0]
  rhsNonContracting := [1]
  lhsBatch := []
  rhsBatch := []
  wf := dot_S50000x1024_S1024x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

class Facts : Prop extends Facts₀ where

variable [Facts]
-- ==== Proof.FrameProjB.lean ====
/-
  The first kernel region, a row-tiled projection, as one step of a pipeline: on every tile of 2000 rows the
  body reads the tile of the input, the whole weight matrix and the bias, and stores one block of 2000 × 128
  results. Stated at any contents `V` of the buffers when the region is entered: what each window's block is,
  what the body leaves in the output's staging buffer (its one store, of the body's arithmetic on the three
  loaded blocks), the proof data of the pipeline and the obligation that the body meets it at every tile.
-/
import proofs.«114922_j51153060495543_2_alg».proof.Proof.Gen.Kernel.Launch
import proofs.«114922_j51153060495543_2_alg».proof.Proof.Gen.Kernel.Skeleton
import proofs.«114922_j51153060495543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every tile, fetched there or not: a window whose block index
    does not move is fetched once and stays. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev rx : Rect S2000x1024 := Rect.unit (s := S2000x1024) ![0, 0] S2000x1024.size inb_S2000x1024_S2000x1024_0_0
abbrev rw_ : Rect S1024x128 := Rect.unit (s := S1024x128) ![0, 0] S1024x128.size inb_S1024x128_S1024x128_0_0
abbrev rb : Rect S128 := Rect.unit (s := S128) ![0] S128.size inb_S128_S128_0
abbrev ro : Rect S2000x128 := Rect.unit (s := S2000x128) ![0, 0] S2000x128.size inb_S2000x128_S2000x128_0_0

/-- The output's staging buffer after the body: its one store, of the body's arithmetic on the loaded blocks. -/
def out0_3 (x0 : Vec F S2000x1024 .f32) (x1 : Vec F S1024x128 .bf16) (x2 : Vec F S128 .f32) : Vec F S2000x128 .bf16 :=
  View.canon [⟨ro, k0_pay1 (View.ld x0 rx) (View.ld x1 rw_) (View.ld x2 rb)⟩]

/-- The store is of the whole block, so it covers it. -/
theorem cover0_3 (p0 : Vec F S2000x128 .bf16) (y : S2000x128.Idx) :
    ∃ pc ∈ ([⟨ro, p0⟩] : List (View.Piece (Elt F) S2000x128 .bf16)), y ∈ pc.1.set :=
  View.cover_of_tiled [⟨ro, p0⟩] S2000x128.size (by rfl) y

set_option maxHeartbeats 1000000 in
/-- The body on whole staging memrefs, the inputs' at read contents and the output's at anything, runs to the
    continuation holding the inputs' as they were and the output's at `out0_3` of the inputs'. -/
theorem sound_kernel0 (c : Dev nD) (E : Set ℕ) (i : grid0.Coords)
    (arg1 : Memref sig .tc .vmem S2000x1024 .f32) (harg1 : arg1.IsWhole) (arg2 : Memref sig .tc .vmem S1024x128 .bf16) (harg2 : arg2.IsWhole)
    (arg3 : Memref sig .tc .vmem S128 .f32) (harg3 : arg3.IsWhole) (arg4 : Memref sig .tc .vmem S2000x128 .bf16) (harg4 : arg4.IsWhole)
    (x0 : Vec F S2000x1024 .f32) (x1 : Vec F S1024x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_relu_kernel i arg1 harg1 arg2 harg2 arg3 harg3 arg4 harg4) K := by
  simp only [cc0__proj_relu_kernel_eq_skeleton]; unfold cc0__proj_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at tile `t` each
    input's buffer at its block and the output's at `out0_3` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at tile `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any tile: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrameCombBaseB.lean ====
/-
  The second kernel region, a row-tiled combination with a running column sum, as a pipeline with a scratch
  accumulator carried from tile to tile: what its runs share. Ten input windows (three tiled by rows, seven whole
  and fetched once), one output window written only at the last tile, one scratch row. The body's two branch
  conditions — "first tile" and "last tile" — in closed form over the grid of 25 tiles, where the output window is idle,
  and the invariant's shape (the other region's staging buffers at anything, the scratch row, the generator register).
-/
import proofs.«114922_j51153060495543_2_alg».proof.Proof.Gen.Kernel.Launch
import proofs.«114922_j51153060495543_2_alg».proof.Proof.Gen.Kernel.Skeleton
import proofs.«114922_j51153060495543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every tile, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "This is the first tile": the body zeroes the scratch row. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- "This is the last tile": the body scales the scratch row, maps it and stores the result. -/
abbrev cond1_1 (i : grid1.Coords) : Prop := k1_cond2 i = 1#1
theorem hcond1_1 : ∀ t : Fin cfg1.N, cond1_1 (grid1.coords t) ↔ t.val = 24 :=
  (by decide +kernel : ∀ t : Fin grid1.N, cond1_1 (grid1.coords t) ↔ t.val = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Before the last tile the output window is idle and is not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
/-- At the last tile it is live. -/
theorem liveAt1_10 : ∀ t : Fin cfg1.N, cond1_1 (grid1.coords t) → cfg1.idle 10 (grid1.coords t) = false := by decide +kernel

/-! ## The memrefs the body is called with -/

abbrev VO1 : View sig .tc .vmem S1x128 .f32 := (Memref.whole cc1_stg10_0 : Memref sig .tc .vmem S1x128 .f32).view
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x128 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x128 .f32 := win1_10.stage (cfg1.slots t 10)
abbrev hs1_10 (t : Fin cfg1.N) : (ms1_10 t).IsWhole := hstage1_10 ((cfg1.slots t 10).cast nbuf1_10)
/-- The scratch row, a whole scoped buffer of the kernel's own, -/
abbrev scM1 : Memref sig .tc .vmem S1x128 .f32 := Memref.whole cc1_scratch0
/-- and as a view. -/
abbrev VS1 : View sig .tc .vmem S1x128 .f32 := scM1.view

/-- The other region's staging buffers, each whole at some contents: they ride through this region untouched. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The class invariant with the scratch row as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ d, owns (c : Thread nD τ) scM1 fullShare d)) ∗ (∃ r, prngReg c r)) := by
  unfold Pipeline.ΦA; rw [scopedRest1_eq]; simp only [scM1, owns_whole]; try rfl

end Cert.Kernel.Fr

end
-- ==== Proof.FrameCombRunAB.lean ====
/-
  The whole body of the second kernel at the first tile (the scratch row is zeroed, then the tile's column sums are added; no result is stored), run symbolically on whole
  staging memrefs: the pieces its stores leave in the scratch row and in the result's staging buffer are the witness the
  run finds.
-/
import proofs.«114922_j51153060495543_2_alg».proof.Proof.FrameCombBaseB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces (last first) the body leaves in the result's staging buffer and in the scratch row, with the proof that
    from the inputs' memrefs at their contents, the result's at contents handed back untouched and the scratch row at anything the body runs to the
    continuation holding the inputs' as they were and those pieces written. -/
noncomputable def kernelRun1_A (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) :
    Σ' (L10 : List (View.Piece (Elt F) S1x128 .f32)), { LS : List (View.Piece (Elt F) S1x128 .f32) //
      ∀ (xi : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    haveI : Fact (cond1_0 i) := ⟨hc0⟩
    haveI : Fact (¬cond1_1 i) := ⟨hc1⟩
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact HS

end Cert.Kernel.Fr

end
-- ==== Proof.FrameCombRunBB.lean ====
/-
  The whole body of the second kernel at a tile that is neither first nor last (the tile's column sums are added to the scratch row; no result is stored), run symbolically on whole
  staging memrefs: the pieces its stores leave in the scratch row and in the result's staging buffer are the witness the
  run finds.
-/
import proofs.«114922_j51153060495543_2_alg».proof.Proof.FrameCombBaseB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces (last first) the body leaves in the result's staging buffer and in the scratch row, with the proof that
    from the inputs' memrefs at their contents, the result's at contents handed back untouched and the scratch row at what the tile before left the body runs to the
    continuation holding the inputs' as they were and those pieces written. -/
noncomputable def kernelRun1_B (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) :
    Σ' (L10 : List (View.Piece (Elt F) S1x128 .f32)), { LS : List (View.Piece (Elt F) S1x128 .f32) //
      ∀ (xi : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    haveI : Fact (¬cond1_0 i) := ⟨hc0⟩
    haveI : Fact (¬cond1_1 i) := ⟨hc1⟩
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact HS

end Cert.Kernel.Fr

end
-- ==== Proof.FrameCombRunCB.lean ====
/-
  The whole body of the second kernel at the last tile (the tile's column sums are added to the scratch row, then the row is scaled, mapped and stored as the result), run symbolically on whole
  staging memrefs: the pieces its stores leave in the scratch row and in the result's staging buffer are the witness the
  run finds.
-/
import proofs.«114922_j51153060495543_2_alg».proof.Proof.FrameCombBaseB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces (last first) the body leaves in the result's staging buffer and in the scratch row, with the proof that
    from the inputs' memrefs at their contents, the result's at anything and the scratch row at what the tile before left the body runs to the
    continuation holding the inputs' as they were and those pieces written. -/
noncomputable def kernelRun1_C (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) :
    Σ' (L10 : List (View.Piece (Elt F) S1x128 .f32)), { LS : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    haveI : Fact (¬cond1_0 i) := ⟨hc0⟩
    haveI : Fact (cond1_1 i) := ⟨hc1⟩
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    iexists _; iexact HS

end Cert.Kernel.Fr

end
-- ==== Proof.FrameCombB.lean ====
/-
  The second kernel region as a pipeline whose scratch row is carried from tile to tile: what the scratch row and the
  result's staging buffer hold after each tile (a recursion over the tiles: the first tile's case, then the middle
  case over what the tile before left, the last case at tile 24), the invariant that carries the scratch row at those
  contents, the proof data, and the obligation that the body meets them at every tile.
-/
import proofs.«114922_j51153060495543_2_alg».proof.Proof.FrameCombRunAB
import proofs.«114922_j51153060495543_2_alg».proof.Proof.FrameCombRunBB
import proofs.«114922_j51153060495543_2_alg».proof.Proof.FrameCombRunCB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the result's staging buffer: its pieces read back over junk (no piece: a placeholder nothing consults, the window being idle there). -/
def out1_A (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) : Vec F S1x128 .f32 :=
  VO1.read (Elt F) (VO1.writes (Elt F) VO1.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).1)

/-- Case A's pieces for the scratch row cover it. -/
theorem scover1_A (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1 S1x128.size (by sl_kernel_rfl) y

/-- What case A leaves in the scratch row: its pieces read back over junk. -/
def sout1_A (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) : Vec F S1x128 .f32 :=
  VS1.read (Elt F) (VS1.writes (Elt F) VS1.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1)

/-- What case B leaves in the result's staging buffer: its pieces read back over junk (no piece: a placeholder nothing consults, the window being idle there). -/
def out1_B (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) : Vec F S1x128 .f32 :=
  VO1.read (Elt F) (VO1.writes (Elt F) VO1.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).1)

/-- Case B's pieces for the scratch row cover it. -/
theorem scover1_B (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).2.1 S1x128.size (by sl_kernel_rfl) y

/-- What case B leaves in the scratch row: its pieces read back over junk. -/
def sout1_B (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) : Vec F S1x128 .f32 :=
  VS1.read (Elt F) (VS1.writes (Elt F) VS1.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).2.1)

/-- What case C leaves in the result's staging buffer: its pieces read back over junk. -/
def out1_C (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) : Vec F S1x128 .f32 :=
  VO1.read (Elt F) (VO1.writes (Elt F) VO1.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).1)

/-- Case C's pieces for the scratch row cover it. -/
theorem scover1_C (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).2.1 S1x128.size (by sl_kernel_rfl) y

/-- What case C leaves in the scratch row: its pieces read back over junk. -/
def sout1_C (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) : Vec F S1x128 .f32 :=
  VS1.read (Elt F) (VS1.writes (Elt F) VS1.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).2.1)

/-- Case C's pieces for the result's staging buffer cover it. -/
theorem cover1_C (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).1 S1x128.size (by sl_kernel_rfl) y

/-! ## What the result's staging buffer and the scratch row hold after each tile -/

/-- After the body at tile `n`: (the result's staging buffer, the scratch row). -/
def outsAt1 (c : Dev nD) : (n : ℕ) → n < cfg1.N → Vec F S1x128 .f32 × Vec F S1x128 .f32
  | 0, hn =>
    have h0 : (⟨0, hn⟩ : Fin cfg1.N).val = 0 := rfl
    have h1 : ¬ (⟨0, hn⟩ : Fin cfg1.N).val = 24 := (by decide : ¬ (0 : ℕ) = 24)
    (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    have h0 : ¬ (⟨n + 1, hn⟩ : Fin cfg1.N).val = 0 := Nat.succ_ne_zero n
    if h1 : (⟨n + 1, hn⟩ : Fin cfg1.N).val = 24 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)
    else
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)

/-- At the first tile: the first case. -/
theorem outsAt1_A (c : Dev nD) (t : Fin cfg1.N) (h0 : t.val = 0) (h1 : ¬ t.val = 24) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => rfl
  | succ n => exact absurd h0 (Nat.succ_ne_zero n)

/-- At a middle tile: the middle case over what the tile before left. -/
theorem outsAt1_B (c : Dev nD) (t : Fin cfg1.N) (h0 : ¬ t.val = 0) (h1 : ¬ t.val = 24) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- At the last tile: the last case over what the tile before left. -/
theorem outsAt1_C (c : Dev nD) (t : Fin cfg1.N) (h0 : ¬ t.val = 0) (h1 : t.val = 24) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before tile `n`: before the first tile the class's (every scoped buffer at anything);
    afterwards the other region's staging buffers at anything, the scratch row at what the tile before left, and the
    generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
/-- The body at any tile: the inputs' memrefs hold their blocks; the closed forms say which case the tile is in; the
    invariant hands the body the scratch row at what the tile before left (at anything at the first tile) and takes it
    back at this tile's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  by_cases h0 : t.val = 0
  · have h1 : ¬ t.val = 24 := by omega
    rw [Dat.leavesExact_idle (dat1 V c) 10 t (idleAt1_10 t (fun h => h1 ((hcond1_1 t).mp h))) (noFlush1_10 t (fun h => h1 ((hcond1_1 t).mp h)))]
    rw [outsAt1_A V c t h0 h1]
    unfold sout1_A; (try dsimp only)
    rw [PhiS1_castSucc V c t, PhiS1_zero V c _ _ h0, PhiA1_eq]
    iintro ⟨⟨⟨Hb1, Hb2, Hb3, Hb4, Hb5, Hb6, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, ⟨%es, HS⟩⟩
    isplitl [Hb1 Hb2 Hb3 Hb4 Hb5 Hb6 HS Hg]
    · isplitl [Hb1 Hb2 Hb3 Hb4 Hb5 Hb6 HS]
      · isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        unfold owns; iexists _; isplitr
        swap; · iexact HS
        ipureintro; exact View.read_writes_of_cover _ _ _ _ _ (scover1_A c _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h1 : t.val = 24
    · rw [show (dat1 V c).leavesExact 10 t = owns (c : Thread nD τ) (ms1_10 t) fullShare ((dat1 V c).after 10 t) from by
        unfold Dat.leavesExact; rw [liveAt1_10 t ((hcond1_1 t).mpr h1)], after1_10]
      rw [outsAt1_C V c t h0 h1]
      unfold out1_C sout1_C; (try dsimp only)
      rw [PhiS1_castSucc V c t, PhiS1_pos V c _ _ h0]
      iintro ⟨⟨⟨Hb1, Hb2, Hb3, Hb4, Hb5, Hb6, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_C c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%e10, H10⟩, ⟨%es, HS⟩⟩
      isplitl [Hb1 Hb2 Hb3 Hb4 Hb5 Hb6 HS Hg]
      · isplitl [Hb1 Hb2 Hb3 Hb4 Hb5 Hb6 HS]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS
          ipureintro; exact View.read_writes_of_cover _ _ _ _ _ (scover1_C c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_C c _ _ _ _ _ _ _ _ _ _ _ _ _ _ _ _ _ _ _ _ _ _ _ _ _ _ _ _ _ _ _ _ _ _ _ _ _ _)
    · rw [Dat.leavesExact_idle (dat1 V c) 10 t (idleAt1_10 t (fun h => h1 ((hcond1_1 t).mp h))) (noFlush1_10 t (fun h => h1 ((hcond1_1 t).mp h)))]
      rw [outsAt1_B V c t h0 h1]
      unfold sout1_B; (try dsimp only)
      rw [PhiS1_castSucc V c t, PhiS1_pos V c _ _ h0]
      iintro ⟨⟨⟨Hb1, Hb2, Hb3, Hb4, Hb5, Hb6, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B c (grid1.coords t) _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, ⟨%es, HS⟩⟩
      isplitl [Hb1 Hb2 Hb3 Hb4 Hb5 Hb6 HS Hg]
      · isplitl [Hb1 Hb2 Hb3 Hb4 Hb5 Hb6 HS]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS
          ipureintro; exact View.read_writes_of_cover _ _ _ _ _ (scover1_B c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first tile. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last tile the invariant gives the class's back: the scratch row's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 25 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨Hb1, Hb2, Hb3, Hb4, Hb5, Hb6, HS⟩, Hg⟩
  isplitl [Hb1 Hb2 Hb3 Hb4 Hb5 Hb6 HS]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexists _; iexact HS
  iexact Hg

end Cert.Kernel.Fr

end
-- ==== Proof.FrameRunB.lean ====
/-
  The whole program as a chain of segments — a stretch of host operations, the projection region, a second stretch
  (the gather, the two segment sums and the weights' transposes), the combination region — run from the launch to the
  return: the contents of every unscoped buffer at each boundary (a fold from the launch memory: a stretch's
  operations applied, a region's arrays at what its write-backs leave), each argument read back through the fold to its
  launch contents, and the run itself, which ends with every unscoped buffer at the last boundary's contents.
-/
import proofs.«114922_j51153060495543_2_alg».proof.Proof.FrameProjB
import proofs.«114922_j51153060495543_2_alg».proof.Proof.FrameCombB
import proofs.«114922_j51153060495543_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first host stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the combination region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the combination region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 2).trans (((dat0 (V1 m) c).arrAt_in 2 rfl _).trans (A_eq0 (V1 m) c 2))
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := (W4_arr m c 4).trans (((dat1 (V3 m) c).arrAt_in 4 rfl _).trans (A_eq1 (V3 m) c 4))
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := (W4_arr m c 6).trans (((dat1 (V3 m) c).arrAt_in 6 rfl _).trans (A_eq1 (V3 m) c 6))
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := (W4_arr m c 7).trans (((dat1 (V3 m) c).arrAt_in 7 rfl _).trans (A_eq1 (V3 m) c 7))
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := (W4_arr m c 9).trans (((dat1 (V3 m) c).arrAt_in 9 rfl _).trans (A_eq1 (V3 m) c 9))
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

/-- The result's buffer ends at what the combination region's write-backs leave in it. -/
theorem W4_main_v29 (c : Dev nD) : W4 m c (Proc.devRef .tc main_v29) = (dat1 (V3 m) c).arrAt 10 cfg1.N := W4_arr m c 10

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combination region over the thread state: entered from every unscoped buffer at `W3`, left at `W4`; the
    generator register and the scoped rest go into the invariant before the first tile and come back after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE RUN, read at the result and the arguments: the result's buffer ends at what the combination region leaves in
    it, every argument array as launched. -/
theorem run_val : θ_run defs (onTc (τ := τ) (main (F := F))) ⟨m, fun _ => 0, ρ⟩ (fun r => ∀ c : Dev nD,
    r.2.mem ((c.tc : Thread nD τ).loc main_v29) = (dat1 (V3 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
  ⟨(h c _ (mem_uc main_v29 (by decide))).trans (W4_main_v29 m c),
   (h c _ (mem_uc main_arg0 (by decide))).trans (W4_main_arg0 m c),
   (h c _ (mem_uc main_arg1 (by decide))).trans (W4_main_arg1 m c),
   (h c _ (mem_uc main_arg2 (by decide))).trans (W4_main_arg2 m c),
   (h c _ (mem_uc main_arg3 (by decide))).trans (W4_main_arg3 m c),
   (h c _ (mem_uc main_arg4 (by decide))).trans (W4_main_arg4 m c),
   (h c _ (mem_uc main_arg5 (by decide))).trans (W4_main_arg5 m c),
   (h c _ (mem_uc main_arg6 (by decide))).trans (W4_main_arg6 m c),
   (h c _ (mem_uc main_arg7 (by decide))).trans (W4_main_arg7 m c),
   (h c _ (mem_uc main_arg8 (by decide))).trans (W4_main_arg8 m c),
   (h c _ (mem_uc main_arg9 (by decide))).trans (W4_main_arg9 m c),
   (h c _ (mem_uc main_arg10 (by decide))).trans (W4_main_arg10 m c)⟩) (run_all m ρ)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_val m ρ)

end Cert.Kernel.Fr

end
-- ==== Proof.FrameProjI.lean ====
/-
  The first kernel region, a row-tiled projection, as one step of a pipeline: on every tile of 2000 rows the
  body reads the tile of the input, the whole weight matrix and the bias, and stores one block of 2000 × 128
  results. Stated at any contents `V` of the buffers when the region is entered: what each window's block is,
  what the body leaves in the output's staging buffer (its one store, of the body's arithmetic on the three
  loaded blocks), the proof data of the pipeline and the obligation that the body meets it at every tile.
-/
import proofs.«114922_j51153060495543_2_alg».proof.Proof.Gen.KernelIdeal.Launch
import proofs.«114922_j51153060495543_2_alg».proof.Proof.Gen.KernelIdeal.Skeleton
import proofs.«114922_j51153060495543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every tile, fetched there or not: a window whose block index
    does not move is fetched once and stays. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev rx : Rect S2000x1024 := Rect.unit (s := S2000x1024) ![0, 0] S2000x1024.size inb_S2000x1024_S2000x1024_0_0
abbrev rw_ : Rect S1024x128 := Rect.unit (s := S1024x128) ![0, 0] S1024x128.size inb_S1024x128_S1024x128_0_0
abbrev rb : Rect S128 := Rect.unit (s := S128) ![0] S128.size inb_S128_S128_0
abbrev ro : Rect S2000x128 := Rect.unit (s := S2000x128) ![0, 0] S2000x128.size inb_S2000x128_S2000x128_0_0

/-- The output's staging buffer after the body: its one store, of the body's arithmetic on the loaded blocks. -/
def out0_3 (x0 : Vec F S2000x1024 .f32) (x1 : Vec F S1024x128 .bf16) (x2 : Vec F S128 .f32) : Vec F S2000x128 .bf16 :=
  View.canon [⟨ro, k0_pay1 (View.ld x0 rx) (View.ld x1 rw_) (View.ld x2 rb)⟩]

/-- The store is of the whole block, so it covers it. -/
theorem cover0_3 (p0 : Vec F S2000x128 .bf16) (y : S2000x128.Idx) :
    ∃ pc ∈ ([⟨ro, p0⟩] : List (View.Piece (Elt F) S2000x128 .bf16)), y ∈ pc.1.set :=
  View.cover_of_tiled [⟨ro, p0⟩] S2000x128.size (by rfl) y

set_option maxHeartbeats 1000000 in
/-- The body on whole staging memrefs, the inputs' at read contents and the output's at anything, runs to the
    continuation holding the inputs' as they were and the output's at `out0_3` of the inputs'. -/
theorem sound_kernel0 (c : Dev nD) (E : Set ℕ) (i : grid0.Coords)
    (arg1 : Memref sig .tc .vmem S2000x1024 .f32) (harg1 : arg1.IsWhole) (arg2 : Memref sig .tc .vmem S1024x128 .bf16) (harg2 : arg2.IsWhole)
    (arg3 : Memref sig .tc .vmem S128 .f32) (harg3 : arg3.IsWhole) (arg4 : Memref sig .tc .vmem S2000x128 .bf16) (harg4 : arg4.IsWhole)
    (x0 : Vec F S2000x1024 .f32) (x1 : Vec F S1024x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_relu_kernel i arg1 harg1 arg2 harg2 arg3 harg3 arg4 harg4) K := by
  simp only [cc0__proj_relu_kernel_eq_skeleton]; unfold cc0__proj_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at tile `t` each
    input's buffer at its block and the output's at `out0_3` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at tile `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any tile: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameCombBaseI.lean ====
/-
  The second kernel region, a row-tiled combination with a running column sum, as a pipeline with a scratch
  accumulator carried from tile to tile: what its runs share. Ten input windows (three tiled by rows, seven whole
  and fetched once), one output window written only at the last tile, one scratch row. The body's two branch
  conditions — "first tile" and "last tile" — in closed form over the grid of 25 tiles, where the output window is idle,
  and the invariant's shape (the other region's staging buffers at anything, the scratch row, the generator register).
-/
import proofs.«114922_j51153060495543_2_alg».proof.Proof.Gen.KernelIdeal.Launch
import proofs.«114922_j51153060495543_2_alg».proof.Proof.Gen.KernelIdeal.Skeleton
import proofs.«114922_j51153060495543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every tile, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "This is the first tile": the body zeroes the scratch row. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- "This is the last tile": the body scales the scratch row, maps it and stores the result. -/
abbrev cond1_1 (i : grid1.Coords) : Prop := k1_cond2 i = 1#1
theorem hcond1_1 : ∀ t : Fin cfg1.N, cond1_1 (grid1.coords t) ↔ t.val = 24 :=
  (by decide +kernel : ∀ t : Fin grid1.N, cond1_1 (grid1.coords t) ↔ t.val = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Before the last tile the output window is idle and is not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
/-- At the last tile it is live. -/
theorem liveAt1_10 : ∀ t : Fin cfg1.N, cond1_1 (grid1.coords t) → cfg1.idle 10 (grid1.coords t) = false := by decide +kernel

/-! ## The memrefs the body is called with -/

abbrev VO1 : View sig .tc .vmem S1x128 .f32 := (Memref.whole cc1_stg10_0 : Memref sig .tc .vmem S1x128 .f32).view
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x128 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x128 .f32 := win1_10.stage (cfg1.slots t 10)
abbrev hs1_10 (t : Fin cfg1.N) : (ms1_10 t).IsWhole := hstage1_10 ((cfg1.slots t 10).cast nbuf1_10)
/-- The scratch row, a whole scoped buffer of the kernel's own, -/
abbrev scM1 : Memref sig .tc .vmem S1x128 .f32 := Memref.whole cc1_scratch0
/-- and as a view. -/
abbrev VS1 : View sig .tc .vmem S1x128 .f32 := scM1.view

/-- The other region's staging buffers, each whole at some contents: they ride through this region untouched. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The class invariant with the scratch row as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ d, owns (c : Thread nD τ) scM1 fullShare d)) ∗ (∃ r, prngReg c r)) := by
  unfold Pipeline.ΦA; rw [scopedRest1_eq]; simp only [scM1, owns_whole]; try rfl

end Cert.KernelIdeal.Fr

end
-- ==== Proof.FrameCombRunAI.lean ====
/-
  The whole body of the second kernel at the first tile (the scratch row is zeroed, then the tile's column sums are added; no result is stored), run symbolically on whole
  staging memrefs: the pieces its stores leave in the scratch row and in the result's staging buffer are the witness the
  run finds.
-/
import proofs.«114922_j51153060495543_2_alg».proof.Proof.FrameCombBaseI

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces (last first) the body leaves in the result's staging buffer and in the scratch row, with the proof that
    from the inputs' memrefs at their contents, the result's at contents handed back untouched and the scratch row at anything the body runs to the
    continuation holding the inputs' as they were and those pieces written. -/
noncomputable def kernelRun1_A (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) :
    Σ' (L10 : List (View.Piece (Elt F) S1x128 .f32)), { LS : List (View.Piece (Elt F) S1x128 .f32) //
      ∀ (xi : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    haveI : Fact (cond1_0 i) := ⟨hc0⟩
    haveI : Fact (¬cond1_1 i) := ⟨hc1⟩
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact HS

end Cert.KernelIdeal.Fr

end
-- ==== Proof.FrameCombRunBI.lean ====
/-
  The whole body of the second kernel at a tile that is neither first nor last (the tile's column sums are added to the scratch row; no result is stored), run symbolically on whole
  staging memrefs: the pieces its stores leave in the scratch row and in the result's staging buffer are the witness the
  run finds.
-/
import proofs.«114922_j51153060495543_2_alg».proof.Proof.FrameCombBaseI

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces (last first) the body leaves in the result's staging buffer and in the scratch row, with the proof that
    from the inputs' memrefs at their contents, the result's at contents handed back untouched and the scratch row at what the tile before left the body runs to the
    continuation holding the inputs' as they were and those pieces written. -/
noncomputable def kernelRun1_B (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) :
    Σ' (L10 : List (View.Piece (Elt F) S1x128 .f32)), { LS : List (View.Piece (Elt F) S1x128 .f32) //
      ∀ (xi : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    haveI : Fact (¬cond1_0 i) := ⟨hc0⟩
    haveI : Fact (¬cond1_1 i) := ⟨hc1⟩
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact HS

end Cert.KernelIdeal.Fr

end
-- ==== Proof.FrameCombRunCI.lean ====
/-
  The whole body of the second kernel at the last tile (the tile's column sums are added to the scratch row, then the row is scaled, mapped and stored as the result), run symbolically on whole
  staging memrefs: the pieces its stores leave in the scratch row and in the result's staging buffer are the witness the
  run finds.
-/
import proofs.«114922_j51153060495543_2_alg».proof.Proof.FrameCombBaseI

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces (last first) the body leaves in the result's staging buffer and in the scratch row, with the proof that
    from the inputs' memrefs at their contents, the result's at anything and the scratch row at what the tile before left the body runs to the
    continuation holding the inputs' as they were and those pieces written. -/
noncomputable def kernelRun1_C (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) :
    Σ' (L10 : List (View.Piece (Elt F) S1x128 .f32)), { LS : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    haveI : Fact (¬cond1_0 i) := ⟨hc0⟩
    haveI : Fact (cond1_1 i) := ⟨hc1⟩
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    iexists _; iexact HS

end Cert.KernelIdeal.Fr

end
-- ==== Proof.FrameCombI.lean ====
/-
  The second kernel region as a pipeline whose scratch row is carried from tile to tile: what the scratch row and the
  result's staging buffer hold after each tile (a recursion over the tiles: the first tile's case, then the middle
  case over what the tile before left, the last case at tile 24), the invariant that carries the scratch row at those
  contents, the proof data, and the obligation that the body meets them at every tile.
-/
import proofs.«114922_j51153060495543_2_alg».proof.Proof.FrameCombRunAI
import proofs.«114922_j51153060495543_2_alg».proof.Proof.FrameCombRunBI
import proofs.«114922_j51153060495543_2_alg».proof.Proof.FrameCombRunCI

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What case A leaves in the result's staging buffer: its pieces read back over junk (no piece: a placeholder nothing consults, the window being idle there). -/
def out1_A (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) : Vec F S1x128 .f32 :=
  VO1.read (Elt F) (VO1.writes (Elt F) VO1.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).1)

/-- Case A's pieces for the scratch row cover it. -/
theorem scover1_A (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1 S1x128.size (by sl_kernel_rfl) y

/-- What case A leaves in the scratch row: its pieces read back over junk. -/
def sout1_A (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) : Vec F S1x128 .f32 :=
  VS1.read (Elt F) (VS1.writes (Elt F) VS1.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1)

/-- What case B leaves in the result's staging buffer: its pieces read back over junk (no piece: a placeholder nothing consults, the window being idle there). -/
def out1_B (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) : Vec F S1x128 .f32 :=
  VO1.read (Elt F) (VO1.writes (Elt F) VO1.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).1)

/-- Case B's pieces for the scratch row cover it. -/
theorem scover1_B (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).2.1 S1x128.size (by sl_kernel_rfl) y

/-- What case B leaves in the scratch row: its pieces read back over junk. -/
def sout1_B (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) : Vec F S1x128 .f32 :=
  VS1.read (Elt F) (VS1.writes (Elt F) VS1.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).2.1)

/-- What case C leaves in the result's staging buffer: its pieces read back over junk. -/
def out1_C (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) : Vec F S1x128 .f32 :=
  VO1.read (Elt F) (VO1.writes (Elt F) VO1.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).1)

/-- Case C's pieces for the scratch row cover it. -/
theorem scover1_C (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).2.1 S1x128.size (by sl_kernel_rfl) y

/-- What case C leaves in the scratch row: its pieces read back over junk. -/
def sout1_C (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) : Vec F S1x128 .f32 :=
  VS1.read (Elt F) (VS1.writes (Elt F) VS1.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).2.1)

/-- Case C's pieces for the result's staging buffer cover it. -/
theorem cover1_C (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs).1 S1x128.size (by sl_kernel_rfl) y

/-! ## What the result's staging buffer and the scratch row hold after each tile -/

/-- After the body at tile `n`: (the result's staging buffer, the scratch row). -/
def outsAt1 (c : Dev nD) : (n : ℕ) → n < cfg1.N → Vec F S1x128 .f32 × Vec F S1x128 .f32
  | 0, hn =>
    have h0 : (⟨0, hn⟩ : Fin cfg1.N).val = 0 := rfl
    have h1 : ¬ (⟨0, hn⟩ : Fin cfg1.N).val = 24 := (by decide : ¬ (0 : ℕ) = 24)
    (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    have h0 : ¬ (⟨n + 1, hn⟩ : Fin cfg1.N).val = 0 := Nat.succ_ne_zero n
    if h1 : (⟨n + 1, hn⟩ : Fin cfg1.N).val = 24 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)
    else
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)

/-- At the first tile: the first case. -/
theorem outsAt1_A (c : Dev nD) (t : Fin cfg1.N) (h0 : t.val = 0) (h1 : ¬ t.val = 24) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
      sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => rfl
  | succ n => exact absurd h0 (Nat.succ_ne_zero n)

/-- At a middle tile: the middle case over what the tile before left. -/
theorem outsAt1_B (c : Dev nD) (t : Fin cfg1.N) (h0 : ¬ t.val = 0) (h1 : ¬ t.val = 24) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- At the last tile: the last case over what the tile before left. -/
theorem outsAt1_C (c : Dev nD) (t : Fin cfg1.N) (h0 : ¬ t.val = 0) (h1 : t.val = 24) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before tile `n`: before the first tile the class's (every scoped buffer at anything);
    afterwards the other region's staging buffers at anything, the scratch row at what the tile before left, and the
    generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
/-- The body at any tile: the inputs' memrefs hold their blocks; the closed forms say which case the tile is in; the
    invariant hands the body the scratch row at what the tile before left (at anything at the first tile) and takes it
    back at this tile's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  by_cases h0 : t.val = 0
  · have h1 : ¬ t.val = 24 := by omega
    rw [Dat.leavesExact_idle (dat1 V c) 10 t (idleAt1_10 t (fun h => h1 ((hcond1_1 t).mp h))) (noFlush1_10 t (fun h => h1 ((hcond1_1 t).mp h)))]
    rw [outsAt1_A V c t h0 h1]
    unfold sout1_A; (try dsimp only)
    rw [PhiS1_castSucc V c t, PhiS1_zero V c _ _ h0, PhiA1_eq]
    iintro ⟨⟨⟨Hb1, Hb2, Hb3, Hb4, Hb5, Hb6, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, ⟨%es, HS⟩⟩
    isplitl [Hb1 Hb2 Hb3 Hb4 Hb5 Hb6 HS Hg]
    · isplitl [Hb1 Hb2 Hb3 Hb4 Hb5 Hb6 HS]
      · isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        unfold owns; iexists _; isplitr
        swap; · iexact HS
        ipureintro; exact View.read_writes_of_cover _ _ _ _ _ (scover1_A c _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h1 : t.val = 24
    · rw [show (dat1 V c).leavesExact 10 t = owns (c : Thread nD τ) (ms1_10 t) fullShare ((dat1 V c).after 10 t) from by
        unfold Dat.leavesExact; rw [liveAt1_10 t ((hcond1_1 t).mpr h1)], after1_10]
      rw [outsAt1_C V c t h0 h1]
      unfold out1_C sout1_C; (try dsimp only)
      rw [PhiS1_castSucc V c t, PhiS1_pos V c _ _ h0]
      iintro ⟨⟨⟨Hb1, Hb2, Hb3, Hb4, Hb5, Hb6, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_C c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%e10, H10⟩, ⟨%es, HS⟩⟩
      isplitl [Hb1 Hb2 Hb3 Hb4 Hb5 Hb6 HS Hg]
      · isplitl [Hb1 Hb2 Hb3 Hb4 Hb5 Hb6 HS]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS
          ipureintro; exact View.read_writes_of_cover _ _ _ _ _ (scover1_C c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_C c _ _ _ _ _ _ _ _ _ _ _ _ _ _ _ _ _ _ _ _ _ _ _ _ _ _ _ _ _ _ _ _ _ _ _ _ _ _)
    · rw [Dat.leavesExact_idle (dat1 V c) 10 t (idleAt1_10 t (fun h => h1 ((hcond1_1 t).mp h))) (noFlush1_10 t (fun h => h1 ((hcond1_1 t).mp h)))]
      rw [outsAt1_B V c t h0 h1]
      unfold sout1_B; (try dsimp only)
      rw [PhiS1_castSucc V c t, PhiS1_pos V c _ _ h0]
      iintro ⟨⟨⟨Hb1, Hb2, Hb3, Hb4, Hb5, Hb6, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B c (grid1.coords t) _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, ⟨%es, HS⟩⟩
      isplitl [Hb1 Hb2 Hb3 Hb4 Hb5 Hb6 HS Hg]
      · isplitl [Hb1 Hb2 Hb3 Hb4 Hb5 Hb6 HS]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS
          ipureintro; exact View.read_writes_of_cover _ _ _ _ _ (scover1_B c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first tile. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last tile the invariant gives the class's back: the scratch row's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 25 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨Hb1, Hb2, Hb3, Hb4, Hb5, Hb6, HS⟩, Hg⟩
  isplitl [Hb1 Hb2 Hb3 Hb4 Hb5 Hb6 HS]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexists _; iexact HS
  iexact Hg

end Cert.KernelIdeal.Fr

end
-- ==== Proof.FrameRunI.lean ====
/-
  The whole program as a chain of segments — a stretch of host operations, the projection region, a second stretch
  (the gather, the two segment sums and the weights' transposes), the combination region — run from the launch to the
  return: the contents of every unscoped buffer at each boundary (a fold from the launch memory: a stretch's
  operations applied, a region's arrays at what its write-backs leave), each argument read back through the fold to its
  launch contents, and the run itself, which ends with every unscoped buffer at the last boundary's contents.
-/
import proofs.«114922_j51153060495543_2_alg».proof.Proof.FrameProjI
import proofs.«114922_j51153060495543_2_alg».proof.Proof.FrameCombI
import proofs.«114922_j51153060495543_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first host stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the combination region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the combination region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 2).trans (((dat0 (V1 m) c).arrAt_in 2 rfl _).trans (A_eq0 (V1 m) c 2))
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := (W4_arr m c 4).trans (((dat1 (V3 m) c).arrAt_in 4 rfl _).trans (A_eq1 (V3 m) c 4))
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := (W4_arr m c 6).trans (((dat1 (V3 m) c).arrAt_in 6 rfl _).trans (A_eq1 (V3 m) c 6))
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := (W4_arr m c 7).trans (((dat1 (V3 m) c).arrAt_in 7 rfl _).trans (A_eq1 (V3 m) c 7))
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := (W4_arr m c 9).trans (((dat1 (V3 m) c).arrAt_in 9 rfl _).trans (A_eq1 (V3 m) c 9))
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

/-- The result's buffer ends at what the combination region's write-backs leave in it. -/
theorem W4_main_v29 (c : Dev nD) : W4 m c (Proc.devRef .tc main_v29) = (dat1 (V3 m) c).arrAt 10 cfg1.N := W4_arr m c 10

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combination region over the thread state: entered from every unscoped buffer at `W3`, left at `W4`; the
    generator register and the scoped rest go into the invariant before the first tile and come back after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE RUN, read at the result and the arguments: the result's buffer ends at what the combination region leaves in
    it, every argument array as launched. -/
theorem run_val : θ_run defs (onTc (τ := τ) (main (F := F))) ⟨m, fun _ => 0, ρ⟩ (fun r => ∀ c : Dev nD,
    r.2.mem ((c.tc : Thread nD τ).loc main_v29) = (dat1 (V3 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
  ⟨(h c _ (mem_uc main_v29 (by decide))).trans (W4_main_v29 m c),
   (h c _ (mem_uc main_arg0 (by decide))).trans (W4_main_arg0 m c),
   (h c _ (mem_uc main_arg1 (by decide))).trans (W4_main_arg1 m c),
   (h c _ (mem_uc main_arg2 (by decide))).trans (W4_main_arg2 m c),
   (h c _ (mem_uc main_arg3 (by decide))).trans (W4_main_arg3 m c),
   (h c _ (mem_uc main_arg4 (by decide))).trans (W4_main_arg4 m c),
   (h c _ (mem_uc main_arg5 (by decide))).trans (W4_main_arg5 m c),
   (h c _ (mem_uc main_arg6 (by decide))).trans (W4_main_arg6 m c),
   (h c _ (mem_uc main_arg7 (by decide))).trans (W4_main_arg7 m c),
   (h c _ (mem_uc main_arg8 (by decide))).trans (W4_main_arg8 m c),
   (h c _ (mem_uc main_arg9 (by decide))).trans (W4_main_arg9 m c),
   (h c _ (mem_uc main_arg10 (by decide))).trans (W4_main_arg10 m c)⟩) (run_all m ρ)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_val m ρ)

end Cert.KernelIdeal.Fr

end
-- ==== Proof.Spec.lean ====
/-
  The function both programs compute, index by index, on the extended reals.

  A graph layer over 50000 nodes: a 1024 → 128 projection with a rectified-linear cut (`proj`), a
  neighbourhood mean (the segment sums `agg` of gathered rows and `deg` of ones are taken as given arrays
  here: both programs obtain them from `proj` by one and the same gather and scatter), two 128 → 128 maps
  (`comb`), a row normalisation to mean zero and unit variance with gain and offset, a second cut
  (`act`), the mean over all nodes and a last 128 → 128 map (`out`).
-/
import Idealize.ShloMosaic.PureOps.Ideal
import Idealize.ShloMosaic.Lib.ValueIdx

noncomputable section

namespace Cert.Spec

open Idealize.ShloMosaic

/-- The float words that occur: 1, 128, 10⁻⁵ rounded to single precision, 50000. -/
abbrev one : EReal := Ideal.ofBits .f32 0x3F800000#32
abbrev c128 : EReal := Ideal.ofBits .f32 0x43000000#32
abbrev eps : EReal := Ideal.ofBits .f32 0x3727C5AC#32

/-- The projection: `max (∑ₖ x[n,k] · w[j,k] + b[j]) 0`. -/
def proj (x : Fin 50000 → Fin 1024 → EReal) (w : Fin 128 → Fin 1024 → EReal) (b : Fin 128 → EReal)
    (n : Fin 50000) (j : Fin 128) : EReal :=
  max ((∑ k : Fin 1024, x n k * w j k) + b j) 0

/-- The neighbourhood mean, `agg[n,k] / max (deg[n]) 1`. -/
def nbr (agg : Fin 50000 → Fin 128 → EReal) (deg : Fin 50000 → EReal) (n : Fin 50000) (k : Fin 128) : EReal :=
  Ideal.div (agg n k) (max (deg n) one)

/-- The combination `(∑ₖ nbr[n,k] · wl[j,k] + bl[j]) + ∑ₖ h[n,k] · wr[j,k]`. -/
def comb (agg : Fin 50000 → Fin 128 → EReal) (deg : Fin 50000 → EReal) (h : Fin 50000 → Fin 128 → EReal)
    (wl : Fin 128 → Fin 128 → EReal) (bl : Fin 128 → EReal) (wr : Fin 128 → Fin 128 → EReal)
    (n : Fin 50000) (j : Fin 128) : EReal :=
  ((∑ k : Fin 128, nbr agg deg n k * wl j k) + bl j) + ∑ k : Fin 128, h n k * wr j k

/-- A row's mean, -/
def mean (v : Fin 128 → EReal) : EReal := Ideal.div (∑ j : Fin 128, v j) c128

/-- its variance about that mean, -/
def var (v : Fin 128 → EReal) : EReal := Ideal.div (∑ j : Fin 128, (v j - mean v) * (v j - mean v)) c128

/-- and the normalised, scaled, shifted and cut row. -/
def act (g b : Fin 128 → EReal) (v : Fin 128 → EReal) (j : Fin 128) : EReal :=
  max ((((v j - mean v) * Ideal.rsqrt (var v + eps)) * g j) + b j) 0

/-- The sum over all nodes of the cut rows. -/
def pool (r : Fin 50000 → Fin 128 → EReal) (j : Fin 128) : EReal := ∑ n : Fin 50000, r n j

/-- The result: the node mean through the last map. -/
def out (p : Fin 128 → EReal) (wo : Fin 128 → Fin 128 → EReal) (bo : Fin 128 → EReal) (j : Fin 128) : EReal :=
  (∑ k : Fin 128, (p k * ((1 / 50000 : ℝ) : EReal)) * wo j k) + bo j

/-- Everything after the gather and scatter, from `h`, `agg`, `deg` and the weights. -/
def tail (agg : Fin 50000 → Fin 128 → EReal) (deg : Fin 50000 → EReal) (h : Fin 50000 → Fin 128 → EReal)
    (wl : Fin 128 → Fin 128 → EReal) (bl : Fin 128 → EReal) (wr : Fin 128 → Fin 128 → EReal)
    (g b : Fin 128 → EReal) (wo : Fin 128 → Fin 128 → EReal) (bo : Fin 128 → EReal) (j : Fin 128) : EReal :=
  out (pool fun n => act g b (comb agg deg h wl bl wr n)) wo bo j

end Cert.Spec

end
-- ==== Proof.RefValueA.lean ====
/-
  The reference's first stages at an index: the 1024 → 128 projection with its cut is the specification's
  `proj`; the gather and the two scatter-adds that follow are named as functions of the projected rows and
  the edge array (`aggOf`, `degOf`), spelt operation by operation as the reference composes them.
-/
import proofs.«114922_j51153060495543_2_alg».proof.Proof.Spec
import proofs.«114922_j51153060495543_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- Two rank-2 indices agree when both coordinates do. -/
local macro "ix_eq2" : tactic => `(tactic| (funext a; match a with | ⟨0, _⟩ => rfl | ⟨1, _⟩ => rfl))
/-- Two rank-1 indices agree when the coordinate does. -/
local macro "ix_eq1" : tactic => `(tactic| (funext a; match a with | ⟨0, _⟩ => rfl))

/-- The projected rows as an array: `max (∑ₖ x[n,k] · w[j,k] + b[j]) 0` at `[n, j]`. -/
def projVec (x : FVec Ideal S50000x1024 .f32) (w : FVec Ideal S128x1024 .f32) (b : FVec Ideal S128 .f32) :
    FVec Ideal S50000x128 .f32 :=
  fun i => Cert.Spec.proj (fun n k => x (ix2 n k)) (fun j k => w (ix2 j k)) (fun j => b (ix1 j)) (i 0) (i 1)

/-- The reference's projection stage at `[n, j]` is the specification's `proj`. -/
theorem proj_eq (x : FVec Ideal S50000x1024 .f32) (w : FVec Ideal S128x1024 .f32) (b : FVec Ideal S128 .f32)
    (n : Fin 50000) (j : Fin 128) :
    val_main_v5 (F := Ideal) x w b (ix2 n j)
      = Cert.Spec.proj (fun n k => x (ix2 n k)) (fun j k => w (ix2 j k)) (fun j => b (ix1 j)) n j := by
  rw [val_main_v5_apply, val_main_v4_apply, val_main_v1_apply, val_main_v3_apply, val_main_v2_apply,
    val_main_call0_v0_apply, val_main_call0_cst_apply]
  simp only [val_main_v0_apply, Ideal.addf_def, Ideal.maximumf_def, Ideal.ofBits_def, Ideal.ofBits_zero_f32]
  have e1 : ∀ k : Fin 1024, lidx_main_v1 (ix2 n j) k = ix2 n k := fun k => by ix_eq2
  have e2 : ∀ k : Fin 1024, idx_main_v0 (ridx_main_v1 (ix2 n j) k) = ix2 j k := fun k => by ix_eq2
  have e3 : idx_main_v2 (idx_main_v3 (ix2 n j)) = ix1 j := by ix_eq1
  simp only [e1, e2, e3]
  rfl

/-- The reference's projection stage is the array `projVec`. -/
theorem val_main_v5_eq (x : FVec Ideal S50000x1024 .f32) (w : FVec Ideal S128x1024 .f32) (b : FVec Ideal S128 .f32) :
    val_main_v5 (F := Ideal) x w b = projVec x w b := by
  funext i
  rw [eq_ix2 i]
  exact proj_eq x w b (i 0) (i 1)

/-- The edge array's row 0 as a flat array of 1600000 node numbers. -/
def srcRow (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The edge array's row 1 as a flat array of 1600000 node numbers. -/
def dstRow (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The gather's index column: row 0, an entry below zero raised by the node count 50000. -/
def srcCol (e : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 50000#32)))
      (srcRow e))

/-- The scatter's index column: row 1. -/
def dstCol (e : (⟨S2x1600000, .i32⟩ : BufTy).Contents (Elt Ideal)) : (⟨S1600000x1, .i32⟩ : BufTy).Contents (Elt Ideal) :=
  broadcastInDim S1600000x1 ![0] bcast_S1600000_S1600000x1_0 (dstRow e)

/-- The segment sum of the gathered rows: the rows `h[src[e]]` added into zeros at the rows `dst[e]`. -/
def aggOf (h : FVec Ideal S50000x128 .f32) (e : (⟨S2x1600000, .i32⟩ : BufTy).Contents (Elt Ideal)) :
    FVec Ideal S50000x128 .f32 :=
  Host.scatterAdd (F := Ideal) scatter_S50000x128_S1600000x1_S1600000x128_1_0_0_1
    (broadcastInDim S50000x128 ![] bcast_S_S50000x128 (constant (F := Ideal) S_ .f32 0x00000000#32))
    (dstCol e)
    (Host.gather gather_S50000x128_S1600000x1_S1600000x128_1_0_n_n_0_1_1128 h (srcCol e))

/-- The in-degrees: ones added into zeros at `dst[e]`. -/
def degOf (e : (⟨S2x1600000, .i32⟩ : BufTy).Contents (Elt Ideal)) : FVec Ideal S50000 .f32 :=
  Host.scatterAdd (F := Ideal) scatter_S50000_S1600000x1_S1600000_n_0_0_1
    (broadcastInDim S50000 ![] bcast_S_S50000 (constant (F := Ideal) S_ .f32 0x00000000#32))
    (dstCol e)
    (broadcastInDim S1600000 ![] bcast_S_S1600000 (constant (F := Ideal) S_ .f32 0x3F800000#32))

/-- The reference's gather index column is `srcCol`. -/
theorem val_main_v15_eq (e : (⟨S2x1600000, .i32⟩ : BufTy).Contents (Elt Ideal)) : val_main_v15 (F := Ideal) e = srcCol e := rfl

/-- The reference's two scatter index columns are `dstCol`. -/
theorem val_main_v18_eq (e : (⟨S2x1600000, .i32⟩ : BufTy).Contents (Elt Ideal)) : val_main_v18 (F := Ideal) e = dstCol e := rfl
theorem val_main_v22_eq (e : (⟨S2x1600000, .i32⟩ : BufTy).Contents (Elt Ideal)) : val_main_v22 (F := Ideal) e = dstCol e := rfl

/-- The reference's scattered sum of gathered rows is `aggOf` of its projection stage. -/
theorem val_main_v19_eq (x0 : FVec Ideal S50000x1024 .f32) (x1 : (⟨S2x1600000, .i32⟩ : BufTy).Contents (Elt Ideal))
    (x2 : FVec Ideal S128x1024 .f32) (x3 : FVec Ideal S128 .f32) :
    val_main_v19 (F := Ideal) x0 x1 x2 x3 = aggOf (val_main_v5 (F := Ideal) x0 x2 x3) x1 := rfl

/-- The reference's scattered sum of ones is `degOf`. -/
theorem val_main_v23_eq (x1 : (⟨S2x1600000, .i32⟩ : BufTy).Contents (Elt Ideal)) :
    val_main_v23 (F := Ideal) x1 = degOf x1 := rfl

/-- The word `0x47435000` is the real number 50000. -/
theorem ofBits_50000 : Ideal.ofBits .f32 0x47435000#32 = ((50000 : ℝ) : EReal) := by
  simp [Ideal.ofBits, Ideal.ieee, -EReal.coe_mul]; norm_num

end Cert.ReferenceIdeal.RefValue

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.PayProj.lean ====
/-
  The projection block read at an index: a 2000-row tile of the input times the 1024 x 128 weight, plus the offset,
  cut below at zero.
-/
import proofs.«114922_j51153060495543_2_alg».proof.Proof.Spec
import proofs.«114922_j51153060495543_2_alg».proof.Proof.Gen.KernelIdeal.Skeleton
import proofs.«114922_j51153060495543_2_alg».proof.Proof.LibDense
import Idealize.ShloMosaic.Lib.ValueLayout

noncomputable section

open scoped BigOperators

namespace Cert.KernelIdeal.Pay

open Idealize.ShloMosaic Idealize.ShloMosaic.ValueIdx Cert.KernelIdeal

/-- Where the 2000 x 1024 by 1024 x 128 product reads its operands: the left one at (row, position), -/
theorem dotP_l0 (i : S2000x128.Idx) (k : dot_S2000x1024_S1024x128_S2000x128_1_0_0_1_n_n.contr.Idx) :
    (dot_S2000x1024_S1024x128_S2000x128_1_0_0_1_n_n.lhsIdx i k 0).val = (i 0).val := by
  unfold DotDims.lhsIdx
  rw [dif_neg (show ¬(0 : Fin S2000x1024.rank) ∈ dot_S2000x1024_S1024x128_S2000x128_1_0_0_1_n_n.lhsBatch by decide),
    dif_pos (show (0 : Fin S2000x1024.rank) ∈ dot_S2000x1024_S1024x128_S2000x128_1_0_0_1_n_n.lhsNonContracting by decide)]
  rfl
theorem dotP_l1 (i : S2000x128.Idx) (k : dot_S2000x1024_S1024x128_S2000x128_1_0_0_1_n_n.contr.Idx) :
    (dot_S2000x1024_S1024x128_S2000x128_1_0_0_1_n_n.lhsIdx i k 1).val = (k ⟨0, by decide⟩).val :=
  dot_S2000x1024_S1024x128_S2000x128_1_0_0_1_n_n.lhsIdx_val_of_single rfl i k
/-- the right one at (position, column). -/
theorem dotP_r0 (i : S2000x128.Idx) (k : dot_S2000x1024_S1024x128_S2000x128_1_0_0_1_n_n.contr.Idx) :
    (dot_S2000x1024_S1024x128_S2000x128_1_0_0_1_n_n.rhsIdx i k 0).val = (k ⟨0, by decide⟩).val :=
  dot_S2000x1024_S1024x128_S2000x128_1_0_0_1_n_n.rhsIdx_val_of_single rfl i k
theorem dotP_r1 (i : S2000x128.Idx) (k : dot_S2000x1024_S1024x128_S2000x128_1_0_0_1_n_n.contr.Idx) :
    (dot_S2000x1024_S1024x128_S2000x128_1_0_0_1_n_n.rhsIdx i k 1).val = (i 1).val := by
  unfold DotDims.rhsIdx
  rw [dif_neg (show ¬(1 : Fin S1024x128.rank) ∈ dot_S2000x1024_S1024x128_S2000x128_1_0_0_1_n_n.rhsBatch by decide),
    dif_pos (show (1 : Fin S1024x128.rank) ∈ dot_S2000x1024_S1024x128_S2000x128_1_0_0_1_n_n.rhsNonContracting by decide)]
  rfl

/-- The stored block at (p, q): max (∑ₖ x[p,k] · w[k,q] + b[q]) 0. -/
theorem pay_proj (v0 : Vec Ideal S2000x1024 .f32) (v2 : Vec Ideal S1024x128 .bf16) (v5 : Vec Ideal S128 .f32)
    (p : Fin 2000) (q : Fin 128) :
    Gen.k0_pay1 (F := Ideal) v0 v2 v5 (ix2 p q)
      = max ((∑ k : Fin 1024, v0 (ix2 p k) * v2 (ix2 k q)) + v5 (ix1 q)) 0 := by
  unfold Gen.k0_pay1
  show max (FloatOps.matmul dot_S2000x1024_S1024x128_S2000x128_1_0_0_1_n_n none
        (truncf .bf16 v0 Gen.bitsLt_bf16_f32 : FVec Ideal S2000x1024 .bf16)
        (shapeCast S1024x128 v2 Gen.shapeCasts_S1024x128_S1024x128 : FVec Ideal S1024x128 .bf16)
        (constant S2000x128 .f32 0x00000000#32) (ix2 p q)
      + broadcastTo S2000x128 (shapeCast S1x128 v5 Gen.shapeCasts_S128_S1x128) Gen.broadcasts_S1x128_S2000x128 (ix2 p q))
      (Ideal.ofBits .f32 0x00000000#32) = _
  rw [Ideal.ofBits_zero_f32]
  refine congrArg (fun z => max z 0) ?_
  refine congrArg₂ (· + ·) ?_ ?_
  · refine (matmul_zero_plain_apply dot_S2000x1024_S1024x128_S2000x128_1_0_0_1_n_n none rfl rfl dotP_l0 dotP_l1 dotP_r0 dotP_r1 _ _ p q).trans ?_
    refine Finset.sum_congr rfl fun k _ => ?_
    rw [shapeCast_self]
    rfl
  · refine (broadcastTo_1b_ab_apply _ _ p q).trans ?_
    exact shapeCast_a_1a_apply _ _ _ q

end Cert.KernelIdeal.Pay

end
-- ==== Proof.ValueProj.lean ====
/-
  The projected array after the first region: every tile of 2000 rows writes back its block, the blocks tile the
  array, so the array ends holding, at every (row, column), the projection of that row.
-/
import proofs.«114922_j51153060495543_2_alg».proof.Proof.Spec
import proofs.«114922_j51153060495543_2_alg».proof.Proof.FrameProjI
import proofs.«114922_j51153060495543_2_alg».proof.Proof.PayProj
import Idealize.ShloMosaic.Lib.Pipeline.Value

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The projection of every row: at (n, j), max (∑ₖ X[n,k] · Wt[k,j] + B[j]) 0. -/
def projArr (X : Vec Ideal S50000x1024 .f32) (Wt : Vec Ideal S1024x128 .bf16) (B : Vec Ideal S128 .f32) :
    Vec Ideal S50000x128 .bf16 :=
  fun i => max ((∑ k : Fin 1024, X (ix2 (⟨(i 0).val, idx2_lt0 i⟩ : Fin 50000) k) * Wt (ix2 k (⟨(i 1).val, idx2_lt1 i⟩ : Fin 128)))
    + B (ix1 (⟨(i 1).val, idx2_lt1 i⟩ : Fin 128))) 0

theorem projArr_apply (X : Vec Ideal S50000x1024 .f32) (Wt : Vec Ideal S1024x128 .bf16) (B : Vec Ideal S128 .f32)
    (n : Fin 50000) (j : Fin 128) :
    projArr X Wt B (ix2 n j) = max ((∑ k : Fin 1024, X (ix2 n k) * Wt (ix2 k j)) + B (ix1 j)) 0 := rfl

/-- The index maps over the grid: the input's and the output's blocks move with the tile along the rows, the weight
    and the offset stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The input window's block at tile t is rows 2000·t … 2000·t + 1999 of the input. -/
theorem iblk_x (c : Dev nD) (t : Fin cfg0.N) (x : S2000x1024.Idx) (k : S50000x1024.Idx)
    (hk0 : (k 0).val = 2000 * t.val + (x 0).val) (hk1 : (k 1).val = (x 1).val) :
    (Fr.iblk0 V c 0 t : Vec Ideal S2000x1024 .f32) x = (V c main_arg0 : S50000x1024.Idx → Elt Ideal .f32) k := by
  obtain ⟨e0, e1, -⟩ := idx_facts t
  unfold Fr.iblk0
  rw [View.read_apply]
  show V c main_arg0 _ = V c main_arg0 _
  refine congrArg (V c main_arg0) ?_
  funext a
  apply Fin.ext
  match a with
  | ⟨0, _⟩ => show win0_0.index t 0 * 2000 + 1 * (x 0).val = (k 0).val; rw [e0, hk0]; omega
  | ⟨1, _⟩ => show win0_0.index t 1 * 1024 + 1 * (x 1).val = (k 1).val; rw [e1, hk1]; omega

/-- The weight window's block at every tile is the whole weight. -/
theorem iblk_w (c : Dev nD) (t : Fin cfg0.N) (x : S1024x128.Idx) :
    (Fr.iblk0 V c 1 t : Vec Ideal S1024x128 .bf16) x = (V c main_v1 : S1024x128.Idx → Elt Ideal .bf16) x := by
  obtain ⟨-, -, e0, e1, -⟩ := idx_facts t
  unfold Fr.iblk0
  rw [View.read_apply]
  show V c main_v1 _ = V c main_v1 _
  refine congrArg (V c main_v1) ?_
  funext a
  apply Fin.ext
  match a with
  | ⟨0, _⟩ => show win0_1.index t 0 * 1024 + 1 * (x 0).val = (x 0).val; rw [e0]; omega
  | ⟨1, _⟩ => show win0_1.index t 1 * 128 + 1 * (x 1).val = (x 1).val; rw [e1]; omega

/-- The offset window's block at every tile is the whole offset. -/
theorem iblk_b (c : Dev nD) (t : Fin cfg0.N) (x : S128.Idx) :
    (Fr.iblk0 V c 2 t : Vec Ideal S128 .f32) x = (V c main_arg3 : S128.Idx → Elt Ideal .f32) x := by
  obtain ⟨-, -, -, -, e0, -⟩ := idx_facts t
  unfold Fr.iblk0
  rw [View.read_apply]
  show V c main_arg3 _ = V c main_arg3 _
  refine congrArg (V c main_arg3) ?_
  funext a
  apply Fin.ext
  match a with
  | ⟨0, _⟩ => show win0_2.index t 0 * 128 + 1 * (x 0).val = (x 0).val; rw [e0]; omega

/-- What tile t writes back is block t of the projection of the arrays as the region finds them. -/
theorem flushed3_eq (c : Dev nD) (t : Fin cfg0.N) :
    (Fr.dat0 (F := Ideal) V c).flushed 3 t
      = ((cfg0.win 3).blk t).view.read (Elt Ideal) (projArr (V c main_arg0) (V c main_v1) (V c main_arg3)) := by
  show (cfg0.win 3).cut (grid0.coords t) ((Fr.dat0 (F := Ideal) V c).after 3 t) = _
  rw [Fr.after0_3]
  unfold Fr.out0_3
  rw [View.canon_unit_zero hz2]
  simp only [View.ld_unit_zero (S := S2000x1024) hz2, View.ld_unit_zero (S := S1024x128) hz2,
    View.ld_unit_zero (S := S128) hz1]
  obtain ⟨-, -, -, -, -, e0, e1⟩ := idx_facts t
  have ht : t.val < 25 := lt_of_lt_of_eq t.isLt Gen.N_0
  funext y
  have hp : (y 0).val < 2000 := (y 0).isLt
  have hq : (y 1).val < 128 := (y 1).isLt
  have hL : (cfg0.win 3).xinj (grid0.coords t) y = ix2 (⟨(y 0).val, hp⟩ : Fin 2000) (⟨(y 1).val, hq⟩ : Fin 128) := by
    funext a
    match a with
    | ⟨0, _⟩ => rfl
    | ⟨1, _⟩ => rfl
  have hR : ((cfg0.win 3).blk t).view.emb y
      = ix2 (⟨2000 * t.val + (y 0).val, by omega⟩ : Fin 50000) (⟨(y 1).val, hq⟩ : Fin 128) := by
    funext a
    apply Fin.ext
    match a with
    | ⟨0, _⟩ => show win0_3.index t 0 * 2000 + 1 * (y 0).val = 2000 * t.val + (y 0).val; rw [e0]; omega
    | ⟨1, _⟩ => show win0_3.index t 1 * 128 + 1 * (y 1).val = (y 1).val; rw [e1]; omega
  show Gen.k0_pay1 (F := Ideal) (Fr.iblk0 V c 0 t) (Fr.iblk0 V c 1 t) (Fr.iblk0 V c 2 t)
      ((cfg0.win 3).xinj (grid0.coords t) y)
    = projArr (V c main_arg0) (V c main_v1) (V c main_arg3) (((cfg0.win 3).blk t).view.emb y)
  rw [hL, hR, projArr_apply]
  refine (Pay.pay_proj _ _ _ _ _).trans ?_
  refine congrArg (fun z => max z 0) (congrArg₂ (· + ·) (Finset.sum_congr rfl fun k _ => ?_) (iblk_b V c t _))
  exact congrArg₂ (· * ·) (iblk_x V c t _ _ rfl rfl) (iblk_w V c t _)

/-- An index of the array is in tile t's block iff each coordinate is in the block's range on its axis. -/
theorem mem_blk3 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v2).slice (win0_3.rect t)).set ↔ _
  rw [View.set_slice_whole, Rect.mem_set_unit]
  exact Iff.rfl

/-- Every index of the array is in the block of the tile its row falls in. -/
theorem cover3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := Gen.N_0
  refine ⟨⟨(i 0).val / 2000, by rw [hN]; omega⟩, flush0_3 _, ?_⟩
  obtain ⟨-, -, -, -, -, e0, e1⟩ := idx_facts ⟨(i 0).val / 2000, by rw [hN]; omega⟩
  rw [mem_blk3]
  intro a
  match a with
  | ⟨0, _⟩ =>
    show win0_3.index ⟨(i 0).val / 2000, _⟩ (0 : Fin 2) * 2000 ≤ (i 0).val
      ∧ (i 0).val < win0_3.index ⟨(i 0).val / 2000, _⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, _⟩ (1 : Fin 2) * 128 ≤ (i 1).val
      ∧ (i 1).val < win0_3.index ⟨(i 0).val / 2000, _⟩ (1 : Fin 2) * 128 + 128
    rw [e1]
    omega

/-- The projected array after the region: the projection of the arrays as the region finds them. -/
theorem arr_proj (c : Dev nD) :
    (Fr.dat0 (F := Ideal) V c).arrAt 3 cfg0.N = projArr (V c main_arg0) (V c main_v1) (V c main_arg3) :=
  (Fr.dat0 (F := Ideal) V c).arrAt_eq_of_cover 3 _ (fun t _ => flushed3_eq V c t) cover3

end Cert.KernelIdeal.Val

end
-- ==== Proof.LibBroadcastInDim.lean ====
/-
  `broadcast_in_dim` read at an index, for four shapes a host program takes a row statistic or a bias through
  (the library has the fifth, a scalar spread over any shape): a vector written as a column; a column repeated along every column; a vector written
  as a one-row matrix; a one-row matrix repeated down every row. In each the entry of the result at an index is the
  operand's entry at the coordinates the operand has.
-/
import Idealize.ShloMosaic.Lib.Pipeline.Value
import Idealize.ShloMosaic.Lib.ValueIdx

namespace Idealize.ShloMosaic.ValueIdx

variable {α : Type}

/-- An `[a]` vector written as the column `[a, 1]` (its axis sent to axis 0) reads, at `(p, u)`, the vector at `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ (![0] : Fin 1 → Fin 2) h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- An `[a, 1]` column repeated along the columns of `[a, b]` (axes kept in place) reads, at `(p, c)`, the column at row `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (![0, 1] : Fin 2 → Fin 2) h x (ix2 p c) = x (ix2 p (0 : Fin 1)) :=
  broadcastInDim_apply _ h x (ix2 p c) (ix2 p (0 : Fin 1)) fun ax => by
    match ax with
    | ⟨0, _⟩ =>
      show p.val = if a = 1 then 0 else p.val
      split
      · have := p.isLt; omega
      · rfl
    | ⟨1, _⟩ => rfl

/-- A `[b]` vector written as the one-row matrix `[1, b]` (its axis sent to axis 1) reads, at `(u, c)`, the vector at `c`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) :=
  broadcastInDim_apply _ h x (ix2 u c) (ix1 c) fun ax => by
    match ax with
    | ⟨0, _⟩ =>
      show c.val = if b = 1 then 0 else c.val
      split
      · have := c.isLt; omega
      · rfl

/-- A `[1, b]` one-row matrix repeated down the rows of `[a, b]` reads, at `(p, c)`, the row at column `c`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ (![0, 1] : Fin 2 → Fin 2) h x (ix2 p c) = x (ix2 (0 : Fin 1) c) :=
  broadcastInDim_apply _ h x (ix2 p c) (ix2 (0 : Fin 1) c) fun ax => by
    match ax with
    | ⟨0, _⟩ => rfl
    | ⟨1, _⟩ =>
      show c.val = if b = 1 then 0 else c.val
      split
      · have := c.isLt; omega
      · rfl

end Idealize.ShloMosaic.ValueIdx
-- ==== Proof.GlueI.lean ====
/-
  Between the two kernel regions the program gathers rows of the projection, takes two segment sums and transposes
  three weight matrices, all on the host. What each buffer the combination region reads holds when that region is
  entered, as a function of the launch memory: the projection's rows (what the first region's write-backs leave), their
  segment sums and the in-degrees (the same gather and scatters the reference applies), the transposed weights, and the
  untouched arguments.
-/
import proofs.«114922_j51153060495543_2_alg».proof.Proof.FrameRunI
import proofs.«114922_j51153060495543_2_alg».proof.Proof.RefValueA
import proofs.«114922_j51153060495543_2_alg».proof.Proof.ValueProj
import proofs.«114922_j51153060495543_2_alg».proof.Proof.LibBroadcastInDim
import Idealize.ShloMosaic.Lib.ValueLayout
import Idealize.ShloMosaic.Lib.StableHlo.Run

noncomputable section

namespace Cert.KernelIdeal.Val

open Idealize.ShloMosaic Idealize.ShloMosaic.TcCoe Idealize.SL.Sem Idealize.ShloMosaic.StableHlo Idealize.ShloMosaic.ValueIdx
open Cert.KernelIdeal Cert.KernelIdeal.Gen
open Cert.ReferenceIdeal.RefValue (aggOf degOf projVec)

variable (m : (ℓ : Loc nD τ sig) → Buf (Elt Ideal) ℓ) (c : Dev nD)

/-- A buffer the first host stretch does not write holds its launch contents when the projection region is entered. -/
theorem W1_keep (b : Ref sig .tc) (hb : b ∉ hostOps0_W) : Fr.W1 m c (Proc.devRef .tc b) = m ((c : Thread nD τ).loc b) :=
  (StableHlo.after_of_writes_sub hostOps0 _ hostOps0_writes hb).trans rfl

/-- A buffer neither the first host stretch nor the projection region writes still holds its launch contents after that region. -/
theorem W2_keep (b : Ref sig .tc) (hb : b ∉ hostOps0_W) (hw : ∀ w, Pipeline.arrRef spec0 w ≠ b) :
    Fr.W2 m c (Proc.devRef .tc b) = m ((c : Thread nD τ).loc b) :=
  (Fr.W2_of_ne m c b hw).trans (W1_keep m c b hb)

/-- A buffer the second host stretch does not write enters the combination region as the projection region left it. -/
theorem V3_keep (b : Ref sig .tc) (hb : b ∉ hostOps1_W) : Fr.V3 m c b = Fr.W2 m c (Proc.devRef .tc b) :=
  StableHlo.after_of_writes_sub hostOps1 _ hostOps1_writes hb

/-- The weights the projection region reads: the argument transposed (the change of float format is the identity). -/
theorem V1_v1 : (Fr.V1 m c main_v1 : S1024x128.Idx → EReal)
    = truncf (F := Ideal) .bf16 (transpose S1024x128 [1, 0] (m ((c : Thread nD τ).loc main_arg2)) transposes_S128x1024_S1024x128_1_0) bitsLt_bf16_f32 := by
  show StableHlo.after hostOps0 (Fr.W0 m c) (Proc.devRef .tc main_v1) = _
  after_results

/-- At `[k, j]` they are the argument at `[j, k]`. -/
theorem V1_v1_apply (k : Fin 1024) (j : Fin 128) :
    (Fr.V1 m c main_v1 : S1024x128.Idx → EReal) (ix2 k j) = (m ((c : Thread nD τ).loc main_arg2) : S128x1024.Idx → EReal) (ix2 j k) := by
  rw [V1_v1]
  exact transpose_ix2_apply _ _ k j

/-- The projection with the weights read transposed is the specification's projection. -/
theorem projArr_eq_projVec (X : Vec Ideal S50000x1024 .f32) (Wt : Vec Ideal S1024x128 .bf16) (B : Vec Ideal S128 .f32)
    (W : Vec Ideal S128x1024 .f32) (hW : ∀ (k : Fin 1024) (j : Fin 128), Wt (ix2 k j) = W (ix2 j k)) :
    projArr X Wt B = projVec X W B := by
  funext i
  obtain ⟨n, j, rfl⟩ : ∃ (n : Fin 50000) (j : Fin 128), i = ix2 n j := ⟨i 0, i 1, eq_ix2 i⟩
  rw [projArr_apply]
  show _ = Cert.Spec.proj _ _ _ n j
  unfold Cert.Spec.proj
  simp only [hW]

/-- The projection's rows after the first region: the specification's projection of the launch arguments. -/
theorem W2_v2 : (Fr.W2 m c (Proc.devRef .tc main_v2) : S50000x128.Idx → EReal)
    = projVec (m ((c : Thread nD τ).loc main_arg0)) (m ((c : Thread nD τ).loc main_arg2)) (m ((c : Thread nD τ).loc main_arg3)) := by
  refine ((Fr.W2_arr m c 3).trans (arr_proj (Fr.V1 m) c)).trans ?_
  rw [show (Fr.V1 m c main_arg0) = m ((c : Thread nD τ).loc main_arg0) from W1_keep m c main_arg0 (by decide),
    show (Fr.V1 m c main_arg3) = m ((c : Thread nD τ).loc main_arg3) from W1_keep m c main_arg3 (by decide)]
  exact projArr_eq_projVec _ _ _ _ (fun k j => V1_v1_apply m c k j)

/-- The segment sums of gathered rows the combination region reads: the reference's, of the buffers before. -/
theorem V3_v17 : (Fr.V3 m c main_v17 : S50000x128.Idx → EReal)
    = aggOf (Fr.W2 m c (Proc.devRef .tc main_v2)) (Fr.W2 m c (Proc.devRef .tc main_arg1)) := by
  show StableHlo.after hostOps1 (Fr.W2 m c) (Proc.devRef .tc main_v17) = _
  after_results
  rfl

/-- The in-degree column: the reference's in-degrees written as a column. -/
theorem V3_v22 : (Fr.V3 m c main_v22 : S50000x1.Idx → EReal)
    = broadcastInDim S50000x1 ![0] bcast_S50000_S50000x1_0 (degOf (Fr.W2 m c (Proc.devRef .tc main_arg1))) := by
  show StableHlo.after hostOps1 (Fr.W2 m c) (Proc.devRef .tc main_v22) = _
  after_results
  rfl

/-- The three transposed weight matrices. -/
theorem V3_v24 : (Fr.V3 m c main_v24 : S128x128.Idx → EReal)
    = truncf (F := Ideal) .bf16 (transpose S128x128 [1, 0] (Fr.W2 m c (Proc.devRef .tc main_arg4)) transposes_S128x128_S128x128_1_0) bitsLt_bf16_f32 := by
  show StableHlo.after hostOps1 (Fr.W2 m c) (Proc.devRef .tc main_v24) = _
  after_results
theorem V3_v26 : (Fr.V3 m c main_v26 : S128x128.Idx → EReal)
    = truncf (F := Ideal) .bf16 (transpose S128x128 [1, 0] (Fr.W2 m c (Proc.devRef .tc main_arg6)) transposes_S128x128_S128x128_1_0) bitsLt_bf16_f32 := by
  show StableHlo.after hostOps1 (Fr.W2 m c) (Proc.devRef .tc main_v26) = _
  after_results
theorem V3_v28 : (Fr.V3 m c main_v28 : S128x128.Idx → EReal)
    = truncf (F := Ideal) .bf16 (transpose S128x128 [1, 0] (Fr.W2 m c (Proc.devRef .tc main_arg9)) transposes_S128x128_S128x128_1_0) bitsLt_bf16_f32 := by
  show StableHlo.after hostOps1 (Fr.W2 m c) (Proc.devRef .tc main_v28) = _
  after_results

/-! ## The buffers the combination region reads, at an index, from the launch memory -/

abbrev A0 := m ((c : Thread nD τ).loc main_arg0)
abbrev A1 := m ((c : Thread nD τ).loc main_arg1)
abbrev A2 := m ((c : Thread nD τ).loc main_arg2)
abbrev A3 := m ((c : Thread nD τ).loc main_arg3)

theorem in_agg (n : Fin 50000) (k : Fin 128) :
    (Fr.V3 m c main_v17 : S50000x128.Idx → EReal) (ix2 n k) = aggOf (projVec (A0 m c) (A2 m c) (A3 m c)) (A1 m c) (ix2 n k) := by
  rw [V3_v17, W2_v2, W2_keep m c main_arg1 (by decide) (by decide)]
theorem in_deg (n : Fin 50000) :
    (Fr.V3 m c main_v22 : S50000x1.Idx → EReal) (ix2 n (0 : Fin 1)) = degOf (A1 m c) (ix1 n) := by
  rw [V3_v22, W2_keep m c main_arg1 (by decide) (by decide)]
  exact broadcastInDim_a_a1_apply _ _ n 0
theorem in_h (n : Fin 50000) (k : Fin 128) :
    (Fr.V3 m c main_v2 : S50000x128.Idx → EReal) (ix2 n k) = projVec (A0 m c) (A2 m c) (A3 m c) (ix2 n k) := by
  rw [V3_keep m c main_v2 (by decide), W2_v2]
theorem in_wl (k j : Fin 128) :
    (Fr.V3 m c main_v24 : S128x128.Idx → EReal) (ix2 k j) = (m ((c : Thread nD τ).loc main_arg4) : S128x128.Idx → EReal) (ix2 j k) := by
  rw [V3_v24, W2_keep m c main_arg4 (by decide) (by decide)]
  exact transpose_ix2_apply _ _ k j
theorem in_wr (k j : Fin 128) :
    (Fr.V3 m c main_v26 : S128x128.Idx → EReal) (ix2 k j) = (m ((c : Thread nD τ).loc main_arg6) : S128x128.Idx → EReal) (ix2 j k) := by
  rw [V3_v26, W2_keep m c main_arg6 (by decide) (by decide)]
  exact transpose_ix2_apply _ _ k j
theorem in_wo (k j : Fin 128) :
    (Fr.V3 m c main_v28 : S128x128.Idx → EReal) (ix2 k j) = (m ((c : Thread nD τ).loc main_arg9) : S128x128.Idx → EReal) (ix2 j k) := by
  rw [V3_v28, W2_keep m c main_arg9 (by decide) (by decide)]
  exact transpose_ix2_apply _ _ k j
theorem in_arg (b : Ref sig .tc) (h1 : b ∉ hostOps1_W) (h0 : b ∉ hostOps0_W) (hw : ∀ w, Pipeline.arrRef spec0 w ≠ b) :
    Fr.V3 m c b = m ((c : Thread nD τ).loc b) :=
  (V3_keep m c b h1).trans (W2_keep m c b h0 hw)

end Cert.KernelIdeal.Val

end
-- ==== Proof.ValueCombPieces.lean ====
/-
  What the second kernel's body leaves in the scratch row and in the result's staging buffer, case by case, as the
  body's arithmetic of the blocks it loads: the row's update of the carried row (of zero at the first tile), and at the
  last tile the last map of the row just stored.
-/
import proofs.«114922_j51153060495543_2_alg».proof.Proof.FrameCombI
import Idealize.ShloMosaic.Lib.Pipeline.Value

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen Cert.KernelIdeal.Fr

variable {F : FTy → Type} [FloatOps F] [Named F]

theorem hzz : (![0, 0] : Fin 2 → Nat) = fun _ => 0 := funext fun a => by fin_cases a <;> rfl
theorem hzz1 : (![0] : Fin 1 → Nat) = fun _ => 0 := funext fun a => by fin_cases a <;> rfl

/-- A middle tile adds its column sums onto the carried row. -/
theorem sout1_B_eq (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : ¬cond1_1 i) (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) :
    sout1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs
      = k1_pay1 (k1_pay6 x0 x1 x2 x3 x5 x4) (k1_pay7 x0 x1 x2 x3 x5 x4) x6 x7 xs := by
  unfold sout1_B
  rw [View.read_writes_eq_canon _ _ _ (scover1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs)]
  unfold kernelRun1_B
  dsimp only
  sl_unfold_words
  rw [View.canon_unit_zero hzz]
  simp only [View.readAt_eq_ld, harg1.read_unread, harg2.read_unread, harg3.read_unread, harg4.read_unread, harg5.read_unread,
    harg6.read_unread, harg7.read_unread, harg8.read_unread, harg9.read_unread, harg10.read_unread, harg11.read_unread, harg12.read_unread,
    View.ld_unit_zero (S := S2000x128) hzz, View.ld_unit_zero (S := S2000x1) hzz, View.ld_unit_zero (S := S128x128) hzz,
    View.ld_unit_zero (S := S128) hzz1, View.ld_unit_zero (S := S1x128) hzz]

/-- The last tile does the same to the row, -/
theorem sout1_C_eq (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : cond1_1 i) (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) :
    sout1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs
      = k1_pay1 (k1_pay6 x0 x1 x2 x3 x5 x4) (k1_pay7 x0 x1 x2 x3 x5 x4) x6 x7 xs := by
  unfold sout1_C
  rw [View.read_writes_eq_canon _ _ _ (scover1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs)]
  unfold kernelRun1_C
  dsimp only
  sl_unfold_words
  rw [View.canon_unit_zero hzz]
  simp only [View.readAt_eq_ld, harg1.read_unread, harg2.read_unread, harg3.read_unread, harg4.read_unread, harg5.read_unread,
    harg6.read_unread, harg7.read_unread, harg8.read_unread, harg9.read_unread, harg10.read_unread, harg11.read_unread, harg12.read_unread,
    View.ld_unit_zero (S := S2000x128) hzz, View.ld_unit_zero (S := S2000x1) hzz, View.ld_unit_zero (S := S128x128) hzz,
    View.ld_unit_zero (S := S128) hzz1, View.ld_unit_zero (S := S1x128) hzz]

/-- and stores the last map of the row it has just stored. -/
theorem out1_C_eq (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : ¬cond1_0 i) (hc1 : cond1_1 i) (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) (xs : Vec F S1x128 .f32) :
    out1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs
      = k1_pay2 (k1_pay1 (k1_pay6 x0 x1 x2 x3 x5 x4) (k1_pay7 x0 x1 x2 x3 x5 x4) x6 x7 xs) x8 x9 := by
  unfold out1_C
  rw [View.read_writes_eq_canon _ _ _ (cover1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs)]
  unfold kernelRun1_C
  dsimp only
  sl_unfold_words
  rw [View.canon_unit_zero hzz, View.readCov_unit_zero (S := S1x128) _ hzz]
  simp only [View.readAt_eq_ld, harg1.read_unread, harg2.read_unread, harg3.read_unread, harg4.read_unread, harg5.read_unread,
    harg6.read_unread, harg7.read_unread, harg8.read_unread, harg9.read_unread, harg10.read_unread, harg11.read_unread, harg12.read_unread,
    View.ld_unit_zero (S := S2000x128) hzz, View.ld_unit_zero (S := S2000x1) hzz, View.ld_unit_zero (S := S128x128) hzz,
    View.ld_unit_zero (S := S128) hzz1, View.ld_unit_zero (S := S1x128) hzz]

/-- The first tile zeroes the row and adds its column sums onto the zero row. -/
theorem sout1_A_eq (c : Dev nD) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128x128 .bf16) (harg9 : arg9.IsWhole) (arg10 : Memref sig .tc .vmem S128 .f32) (harg10 : arg10.IsWhole) (arg11 : Memref sig .tc .vmem S1x128 .f32) (harg11 : arg11.IsWhole) (arg12 : Memref sig .tc .vmem S1x128 .f32) (harg12 : arg12.IsWhole) (hc0 : cond1_0 i) (hc1 : ¬cond1_1 i) (x0 : Vec F S2000x128 .f32) (x1 : Vec F S2000x1 .f32) (x2 : Vec F S2000x128 .bf16) (x3 : Vec F S128x128 .bf16) (x4 : Vec F S128 .f32) (x5 : Vec F S128x128 .bf16) (x6 : Vec F S128 .f32) (x7 : Vec F S128 .f32) (x8 : Vec F S128x128 .bf16) (x9 : Vec F S128 .f32) :
    sout1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9
      = k1_pay1 (k1_pay6 x0 x1 x2 x3 x5 x4) (k1_pay7 x0 x1 x2 x3 x5 x4) x6 x7 (k1_pay3 (F := F)) := by
  unfold sout1_A
  rw [View.read_writes_eq_canon _ _ _ (scover1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9)]
  unfold kernelRun1_A
  dsimp only
  sl_unfold_words
  rw [View.canon_cons_unit_zero hzz, View.readCov_unit_zero (S := S1x128) _ hzz]
  simp only [View.readAt_eq_ld, harg1.read_unread, harg2.read_unread, harg3.read_unread, harg4.read_unread, harg5.read_unread,
    harg6.read_unread, harg7.read_unread, harg8.read_unread, harg9.read_unread, harg10.read_unread, harg11.read_unread, harg12.read_unread,
    View.ld_unit_zero (S := S2000x128) hzz, View.ld_unit_zero (S := S2000x1) hzz, View.ld_unit_zero (S := S128x128) hzz,
    View.ld_unit_zero (S := S128) hzz1, View.ld_unit_zero (S := S1x128) hzz]

end Cert.KernelIdeal.Val

end
-- ==== Proof.ValueCombBlocks.lean ====
/-
  The second region's windows read off the arrays as the region finds them: the three row-tiled windows' blocks are
  2000 rows of their arrays, the seven others' are their whole arrays.
-/
import proofs.«114922_j51153060495543_2_alg».proof.Proof.Spec
import proofs.«114922_j51153060495543_2_alg».proof.Proof.FrameCombI
import Idealize.ShloMosaic.Lib.Pipeline.Value
import Idealize.ShloMosaic.Lib.ValueIdx

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps over the grid: the three row-tiled windows move with the tile along the rows, -/
theorem idx1_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- the others stay. -/
theorem idx1_whole : ∀ t : Fin cfg1.N, win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = 0 ∧ win1_10.index t (1 : Fin 2) = 0 :=
  (by decide +kernel : ∀ t : Fin grid1.N, _)

/-- Window 0's block at tile t is rows 2000·t … 2000·t + 1999 of its array. -/
theorem iblk1_agg (c : Dev nD) (t : Fin cfg1.N) (p : Fin 2000) (k : Fin 128) (hb : 2000 * t.val + p.val < 50000) :
    (Fr.iblk1 V c 0 t : Vec Ideal S2000x128 .f32) (ix2 p k)
      = (V c main_v17 : Vec Ideal S50000x128 .f32) (ix2 (⟨2000 * t.val + p.val, hb⟩ : Fin 50000) k) := by
  have e0 : win1_0.index t (0 : Fin 2) = t.val := (idx1_rows t).1
  have e1 : win1_0.index t (1 : Fin 2) = 0 := (idx1_rows t).2.1
  unfold Fr.iblk1
  rw [View.read_apply]
  show V c main_v17 _ = V c main_v17 _
  refine congrArg (V c main_v17) ?_
  funext a
  apply Fin.ext
  match a with
  | ⟨0, _⟩ => show win1_0.index t 0 * 2000 + 1 * p.val = 2000 * t.val + p.val; rw [e0]; omega
  | ⟨1, _⟩ => show win1_0.index t 1 * 128 + 1 * k.val = k.val; rw [e1]; omega

/-- Window 1's block at tile t is rows 2000·t … 2000·t + 1999 of its array. -/
theorem iblk1_deg (c : Dev nD) (t : Fin cfg1.N) (p : Fin 2000) (k : Fin 1) (hb : 2000 * t.val + p.val < 50000) :
    (Fr.iblk1 V c 1 t : Vec Ideal S2000x1 .f32) (ix2 p k)
      = (V c main_v22 : Vec Ideal S50000x1 .f32) (ix2 (⟨2000 * t.val + p.val, hb⟩ : Fin 50000) k) := by
  have e0 : win1_1.index t (0 : Fin 2) = t.val := (idx1_rows t).2.2.1
  have e1 : win1_1.index t (1 : Fin 2) = 0 := (idx1_rows t).2.2.2.1
  unfold Fr.iblk1
  rw [View.read_apply]
  show V c main_v22 _ = V c main_v22 _
  refine congrArg (V c main_v22) ?_
  funext a
  apply Fin.ext
  match a with
  | ⟨0, _⟩ => show win1_1.index t 0 * 2000 + 1 * p.val = 2000 * t.val + p.val; rw [e0]; omega
  | ⟨1, _⟩ => show win1_1.index t 1 * 1 + 1 * k.val = k.val; rw [e1]; omega

/-- Window 2's block at tile t is rows 2000·t … 2000·t + 1999 of its array. -/
theorem iblk1_h (c : Dev nD) (t : Fin cfg1.N) (p : Fin 2000) (k : Fin 128) (hb : 2000 * t.val + p.val < 50000) :
    (Fr.iblk1 V c 2 t : Vec Ideal S2000x128 .bf16) (ix2 p k)
      = (V c main_v2 : Vec Ideal S50000x128 .bf16) (ix2 (⟨2000 * t.val + p.val, hb⟩ : Fin 50000) k) := by
  have e0 : win1_2.index t (0 : Fin 2) = t.val := (idx1_rows t).2.2.2.2.1
  have e1 : win1_2.index t (1 : Fin 2) = 0 := (idx1_rows t).2.2.2.2.2
  unfold Fr.iblk1
  rw [View.read_apply]
  show V c main_v2 _ = V c main_v2 _
  refine congrArg (V c main_v2) ?_
  funext a
  apply Fin.ext
  match a with
  | ⟨0, _⟩ => show win1_2.index t 0 * 2000 + 1 * p.val = 2000 * t.val + p.val; rw [e0]; omega
  | ⟨1, _⟩ => show win1_2.index t 1 * 128 + 1 * k.val = k.val; rw [e1]; omega

/-- Window 3's block at every tile is its whole array. -/
theorem iblk1_wl (c : Dev nD) (t : Fin cfg1.N) (k q : Fin 128) :
    (Fr.iblk1 V c 3 t : Vec Ideal S128x128 .bf16) (ix2 k q) = (V c main_v24 : Vec Ideal S128x128 .bf16) (ix2 k q) := by
  have e0 : win1_3.index t (0 : Fin 2) = 0 := (idx1_whole t).1
  have e1 : win1_3.index t (1 : Fin 2) = 0 := (idx1_whole t).2.1
  unfold Fr.iblk1
  rw [View.read_apply]
  show V c main_v24 _ = V c main_v24 _
  refine congrArg (V c main_v24) ?_
  funext a
  apply Fin.ext
  match a with
  | ⟨0, _⟩ => show win1_3.index t 0 * 128 + 1 * k.val = k.val; rw [e0]; omega
  | ⟨1, _⟩ => show win1_3.index t 1 * 128 + 1 * q.val = q.val; rw [e1]; omega

/-- Window 4's block at every tile is its whole array. -/
theorem iblk1_bl (c : Dev nD) (t : Fin cfg1.N) (q : Fin 128) :
    (Fr.iblk1 V c 4 t : Vec Ideal S128 .f32) (ix1 q) = (V c main_arg5 : Vec Ideal S128 .f32) (ix1 q) := by
  have e0 : win1_4.index t (0 : Fin 1) = 0 := (idx1_whole t).2.2.1
  unfold Fr.iblk1
  rw [View.read_apply]
  show V c main_arg5 _ = V c main_arg5 _
  refine congrArg (V c main_arg5) ?_
  funext a
  apply Fin.ext
  match a with
  | ⟨0, _⟩ => show win1_4.index t 0 * 128 + 1 * q.val = q.val; rw [e0]; omega

/-- Window 5's block at every tile is its whole array. -/
theorem iblk1_wr (c : Dev nD) (t : Fin cfg1.N) (k q : Fin 128) :
    (Fr.iblk1 V c 5 t : Vec Ideal S128x128 .bf16) (ix2 k q) = (V c main_v26 : Vec Ideal S128x128 .bf16) (ix2 k q) := by
  have e0 : win1_5.index t (0 : Fin 2) = 0 := (idx1_whole t).2.2.2.1
  have e1 : win1_5.index t (1 : Fin 2) = 0 := (idx1_whole t).2.2.2.2.1
  unfold Fr.iblk1
  rw [View.read_apply]
  show V c main_v26 _ = V c main_v26 _
  refine congrArg (V c main_v26) ?_
  funext a
  apply Fin.ext
  match a with
  | ⟨0, _⟩ => show win1_5.index t 0 * 128 + 1 * k.val = k.val; rw [e0]; omega
  | ⟨1, _⟩ => show win1_5.index t 1 * 128 + 1 * q.val = q.val; rw [e1]; omega

/-- Window 6's block at every tile is its whole array. -/
theorem iblk1_g (c : Dev nD) (t : Fin cfg1.N) (q : Fin 128) :
    (Fr.iblk1 V c 6 t : Vec Ideal S128 .f32) (ix1 q) = (V c main_arg7 : Vec Ideal S128 .f32) (ix1 q) := by
  have e0 : win1_6.index t (0 : Fin 1) = 0 := (idx1_whole t).2.2.2.2.2.1
  unfold Fr.iblk1
  rw [View.read_apply]
  show V c main_arg7 _ = V c main_arg7 _
  refine congrArg (V c main_arg7) ?_
  funext a
  apply Fin.ext
  match a with
  | ⟨0, _⟩ => show win1_6.index t 0 * 128 + 1 * q.val = q.val; rw [e0]; omega

/-- Window 7's block at every tile is its whole array. -/
theorem iblk1_b (c : Dev nD) (t : Fin cfg1.N) (q : Fin 128) :
    (Fr.iblk1 V c 7 t : Vec Ideal S128 .f32) (ix1 q) = (V c main_arg8 : Vec Ideal S128 .f32) (ix1 q) := by
  have e0 : win1_7.index t (0 : Fin 1) = 0 := (idx1_whole t).2.2.2.2.2.2.1
  unfold Fr.iblk1
  rw [View.read_apply]
  show V c main_arg8 _ = V c main_arg8 _
  refine congrArg (V c main_arg8) ?_
  funext a
  apply Fin.ext
  match a with
  | ⟨0, _⟩ => show win1_7.index t 0 * 128 + 1 * q.val = q.val; rw [e0]; omega

/-- Window 8's block at every tile is its whole array. -/
theorem iblk1_wo (c : Dev nD) (t : Fin cfg1.N) (k q : Fin 128) :
    (Fr.iblk1 V c 8 t : Vec Ideal S128x128 .bf16) (ix2 k q) = (V c main_v28 : Vec Ideal S128x128 .bf16) (ix2 k q) := by
  have e0 : win1_8.index t (0 : Fin 2) = 0 := (idx1_whole t).2.2.2.2.2.2.2.1
  have e1 : win1_8.index t (1 : Fin 2) = 0 := (idx1_whole t).2.2.2.2.2.2.2.2.1
  unfold Fr.iblk1
  rw [View.read_apply]
  show V c main_v28 _ = V c main_v28 _
  refine congrArg (V c main_v28) ?_
  funext a
  apply Fin.ext
  match a with
  | ⟨0, _⟩ => show win1_8.index t 0 * 128 + 1 * k.val = k.val; rw [e0]; omega
  | ⟨1, _⟩ => show win1_8.index t 1 * 128 + 1 * q.val = q.val; rw [e1]; omega

/-- Window 9's block at every tile is its whole array. -/
theorem iblk1_bo (c : Dev nD) (t : Fin cfg1.N) (q : Fin 128) :
    (Fr.iblk1 V c 9 t : Vec Ideal S128 .f32) (ix1 q) = (V c main_arg10 : Vec Ideal S128 .f32) (ix1 q) := by
  have e0 : win1_9.index t (0 : Fin 1) = 0 := (idx1_whole t).2.2.2.2.2.2.2.2.2.1
  unfold Fr.iblk1
  rw [View.read_apply]
  show V c main_arg10 _ = V c main_arg10 _
  refine congrArg (V c main_arg10) ?_
  funext a
  apply Fin.ext
  match a with
  | ⟨0, _⟩ => show win1_9.index t 0 * 128 + 1 * q.val = q.val; rw [e0]; omega

end Cert.KernelIdeal.Val

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PayComb.lean ====
/-
  The combination block read at an index: the neighbourhood mean times one weight, plus an offset, plus the node's own
  row times another weight.
-/
import proofs.«114922_j51153060495543_2_alg».proof.Proof.Spec
import proofs.«114922_j51153060495543_2_alg».proof.Proof.Gen.KernelIdeal.Skeleton
import proofs.«114922_j51153060495543_2_alg».proof.Proof.LibDense
import proofs.«114922_j51153060495543_2_alg».proof.Proof.LibKeepdims
import Idealize.ShloMosaic.Lib.ValueLayout

noncomputable section

open scoped BigOperators

namespace Cert.KernelIdeal.Pay

open Idealize.ShloMosaic Idealize.ShloMosaic.ValueIdx Cert.KernelIdeal

/-- Where the 2000 x 128 by 128 x 128 product reads its operands: the left one at (row, position), the right one at
    (position, column). -/
theorem dotC_l0 (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem dotC_l1 (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k
theorem dotC_r0 (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k
theorem dotC_r1 (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The combination on a block of 2000 rows, the weights read as they arrive (already transposed):
    (∑ₖ agg[p,k] / max (deg[p]) 1 · wl[k,q] + bl[q]) + ∑ₖ h[p,k] · wr[k,q]. -/
def combB (v3 : Vec Ideal S2000x128 .f32) (v5 : Vec Ideal S2000x1 .f32) (v12 : Vec Ideal S2000x128 .bf16)
    (v14 : Vec Ideal S128x128 .bf16) (v16 : Vec Ideal S128x128 .bf16) (v19 : Vec Ideal S128 .f32)
    (p : Fin 2000) (q : Fin 128) : EReal :=
  ((∑ k : Fin 128, Ideal.div (v3 (ix2 p k)) (max (v5 (ix2 p (0 : Fin 1))) Cert.Spec.one) * v14 (ix2 k q)) + v19 (ix1 q))
    + ∑ k : Fin 128, v12 (ix2 p k) * v16 (ix2 k q)

/-- The combined block at (p, q). -/
theorem pay_comb (v3 : Vec Ideal S2000x128 .f32) (v5 : Vec Ideal S2000x1 .f32) (v12 : Vec Ideal S2000x128 .bf16)
    (v14 : Vec Ideal S128x128 .bf16) (v16 : Vec Ideal S128x128 .bf16) (v19 : Vec Ideal S128 .f32)
    (p : Fin 2000) (q : Fin 128) :
    Gen.k1_pay4 (F := Ideal) v3 v5 v12 v14 v16 v19 (ix2 p q) = combB v3 v5 v12 v14 v16 v19 p q := by
  unfold Gen.k1_pay4 combB
  show (FloatOps.matmul dot_S2000x128_S128x128_S2000x128_1_0_0_1_n_n none
          (truncf .bf16 (divf (shapeCast S2000x128 v3 Gen.shapeCasts_S2000x128_S2000x128)
            (broadcastTo S2000x128 (maximumf (shapeCast S2000x1 v5 Gen.shapeCasts_S2000x1_S2000x1)
              (broadcast S2000x1 (Scalar.ofBits (F := Ideal) .f32 0x3F800000#32))) Gen.broadcasts_S2000x1_S2000x128))
            Gen.bitsLt_bf16_f32 : FVec Ideal S2000x128 .bf16)
          (shapeCast S128x128 v14 Gen.shapeCasts_S128x128_S128x128 : FVec Ideal S128x128 .bf16)
          (constant S2000x128 .f32 0x00000000#32) (ix2 p q)
        + broadcastTo S2000x128 (shapeCast S1x128 v19 Gen.shapeCasts_S128_S1x128) Gen.broadcasts_S1x128_S2000x128 (ix2 p q))
      + FloatOps.matmul dot_S2000x128_S128x128_S2000x128_1_0_0_1_n_n none
          (shapeCast S2000x128 v12 Gen.shapeCasts_S2000x128_S2000x128 : FVec Ideal S2000x128 .bf16)
          (shapeCast S128x128 v16 Gen.shapeCasts_S128x128_S128x128 : FVec Ideal S128x128 .bf16)
          (constant S2000x128 .f32 0x00000000#32) (ix2 p q) = _
  refine congrArg₂ (· + ·) (congrArg₂ (· + ·) ?_ ?_) ?_
  · refine (matmul_zero_plain_apply dot_S2000x128_S128x128_S2000x128_1_0_0_1_n_n none rfl rfl dotC_l0 dotC_l1 dotC_r0 dotC_r1 _ _ p q).trans ?_
    refine Finset.sum_congr rfl fun k _ => ?_
    show Ideal.div (shapeCast S2000x128 v3 Gen.shapeCasts_S2000x128_S2000x128 (ix2 p k))
        (broadcastTo S2000x128 (maximumf (shapeCast S2000x1 v5 Gen.shapeCasts_S2000x1_S2000x1)
          (broadcast S2000x1 (Scalar.ofBits (F := Ideal) .f32 0x3F800000#32))) Gen.broadcasts_S2000x1_S2000x128 (ix2 p k))
        * shapeCast S128x128 v14 Gen.shapeCasts_S128x128_S128x128 (ix2 k q) = _
    rw [broadcastTo_a1_ab_apply]
    simp only [shapeCast_self]
    rfl
  · refine (broadcastTo_1b_ab_apply _ _ p q).trans ?_
    exact shapeCast_a_1a_apply _ _ _ q
  · refine (matmul_zero_plain_apply dot_S2000x128_S128x128_S2000x128_1_0_0_1_n_n none rfl rfl dotC_l0 dotC_l1 dotC_r0 dotC_r1 _ _ p q).trans ?_
    refine Finset.sum_congr rfl fun k _ => ?_
    simp only [shapeCast_self]

end Cert.KernelIdeal.Pay

end
-- ==== Proof.LibLastAxis.lean ====
/-
  Reductions along the last axis read at an index, on the extended reals (floats as extended reals, operations exact):
  general facts, independent of any program.

  For a matrix `[a, b]` the vector unit's sum and maximum over axis 1 leave one entry per row: at row `p` the sum is the
  sum over the columns `k` of the entry `(p, k)`, and the maximum taken from −∞ is the fold of `max` over those entries.
  For a rank-3 array `[n0, n1, n2]` the host's reduce with a maximum body over axis 2 leaves, at `(b, c)`, the fold of
  `max`, from the initial value's element, over the entries `(b, c, k)`.
-/
import Idealize.ShloMosaic.PureOps.Ideal
import Idealize.ShloMosaic.PureOps.Ideal.Laws
import Idealize.ShloMosaic.Lib.ValueIdx

noncomputable section

open scoped BigOperators

namespace Cert.LibLastAxis

open Idealize.ShloMosaic Idealize.ShloMosaic.ValueIdx

/-- Along axis 1 of a matrix, row `p` with column `k` put back is the entry `(p, k)`. -/
theorem lift_row {a b : ℕ} (hred : (⟨2, ![a, b]⟩ : Shape).Reduces [1] ⟨1, ![a]⟩) (p : Fin a) (k : Fin b) :
    hred.lift (ix1 p) k = ix2 p k := by
  funext ax
  match ax with
  | ⟨0, _⟩ => exact Fin.ext rfl
  | ⟨1, _⟩ => exact Fin.ext rfl

/-- The vector unit's sum over axis 1 of an `[a, b]` vector, from `+0.0`, read at row `p`: the sum over the columns. -/
theorem rowSum_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 hred hφ hacc (ix1 p) = ∑ k : Fin b, v (ix2 p k) :=
  (Ideal.multiReduction_add_single (φ := .f32) v 0x00000000#32 hred hφ hacc (ix1 p)).trans
    (Finset.sum_congr rfl fun k _ => congrArg v (lift_row hred p k))

/-- The vector unit's maximum over axis 1 of an `[a, b]` vector, from −∞, read at row `p`: the fold of `max` over the
    columns, started at the value of the word for −∞. -/
theorem rowMax_apply {a b : ℕ} (v : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32) (p : Fin a) :
    multiReduction (F := Ideal) .maximumf [1] ⟨1, ![a]⟩ v 0xFF800000#32 hred hφ hacc (ix1 p)
      = (Finset.univ : Finset (Fin b)).fold max (Ideal.ofBits .f32 0xFF800000#32) (fun k => v (ix2 p k)) :=
  (Ideal.multiReduction_maximumf_single (φ := .f32) v 0xFF800000#32 hred hφ hacc (ix1 p)).trans
    (congrArg (fun f => Finset.fold max (Ideal.ofBits .f32 0xFF800000#32) f (Finset.univ : Finset (Fin b)))
      (funext fun k => congrArg v (lift_row hred p k)))

/-- Along axis 2 of a rank-3 array, `(b, c)` with coordinate `k` put back is the entry `(b, c, k)`. -/
theorem lift_last3 {n0 n1 n2 : ℕ} (hred : (⟨3, ![n0, n1, n2]⟩ : Shape).Reduces [2] ⟨2, ![n0, n1]⟩)
    (b : Fin n0) (c : Fin n1) (k : Fin n2) : hred.lift (ix2 b c) k = ix3 b c k := by
  funext ax
  match ax with
  | ⟨0, _⟩ => exact Fin.ext rfl
  | ⟨1, _⟩ => exact Fin.ext rfl
  | ⟨2, _⟩ => exact Fin.ext rfl

/-- The host's reduce with a maximum body over axis 2 of an `[n0, n1, n2]` array, read at `(b, c)`: the fold of `max`,
    from the initial value's one element, over the entries `(b, c, k)`. -/
theorem hostMax_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (hred : (⟨3, ![n0, n1, n2]⟩ : Shape).Reduces [2] ⟨2, ![n0, n1]⟩)
    (hu : 0 < (⟨0, ![]⟩ : Shape).numel) (b : Fin n0) (c : Fin n1) :
    Host.reduce (FloatOps.maximumf (F := Ideal) (φ := .f32)) x init h' hu (ix2 b c)
      = (Finset.univ : Finset (Fin n2)).fold max (init (Shape.Idx.first hu)) (fun k => x (ix3 b c k)) := by
  rw [Host.reduce_eq_fold_single FloatOps.maximumf x init h' hred hu]
  exact congrArg (fun f => Finset.fold max (init (Shape.Idx.first hu)) f (Finset.univ : Finset (Fin n2)))
    (funext fun k => congrArg x (lift_last3 hred b c k))

end Cert.LibLastAxis

end
-- ==== Proof.PayNorm.lean ====
/-
  The row statistics of the combination block read at an index: each row's mean, the row with its mean taken off, and
  the row's variance about that mean, each kept as a column of one entry per row.
-/
import proofs.«114922_j51153060495543_2_alg».proof.Proof.Spec
import proofs.«114922_j51153060495543_2_alg».proof.Proof.Gen.KernelIdeal.Skeleton
import proofs.«114922_j51153060495543_2_alg».proof.Proof.PayComb
import proofs.«114922_j51153060495543_2_alg».proof.Proof.LibKeepdims
import proofs.«114922_j51153060495543_2_alg».proof.Proof.LibLastAxis

noncomputable section

open scoped BigOperators

namespace Cert.KernelIdeal.Pay

open Idealize.ShloMosaic Idealize.ShloMosaic.ValueIdx Cert.KernelIdeal

/-- The sum of a block along its rows, kept as a column and divided by the word for 128, read at row p:
    (∑ₖ X[p,k]) / 128. -/
theorem rowMean_apply (X : FVec Ideal S2000x128 .f32) (hred : S2000x128.Reduces [1] S2000) (hφ : FKind.Formats .f32)
    (hacc : (0x00000000#32 : BitVec 32) = 0x00000000#32) (hc : S2000.ShapeCasts S2000x1) (p : Fin 2000) :
    divf (shapeCast S2000x1 (multiReduction (F := Ideal) .add [1] S2000 X 0x00000000#32 hred hφ hacc) hc)
        (broadcast S2000x1 (Scalar.ofBits (F := Ideal) .f32 0x43000000#32)) (ix2 p (0 : Fin 1))
      = Ideal.div (∑ k : Fin 128, X (ix2 p k)) Cert.Spec.c128 := by
  show Ideal.div (shapeCast S2000x1 (multiReduction (F := Ideal) .add [1] S2000 X 0x00000000#32 hred hφ hacc) hc
      (ix2 p (0 : Fin 1))) Cert.Spec.c128 = _
  refine congrArg (fun z => Ideal.div z Cert.Spec.c128) ?_
  refine (shapeCast_a_a1_apply _ hc p (0 : Fin 1)).trans ?_
  exact Cert.LibLastAxis.rowSum_apply X hred hφ hacc p

/-- The row means of the combination block: at row p the mean of that row. -/
theorem pay_mean (v3 : Vec Ideal S2000x128 .f32) (v5 : Vec Ideal S2000x1 .f32) (v12 : Vec Ideal S2000x128 .bf16)
    (v14 : Vec Ideal S128x128 .bf16) (v16 : Vec Ideal S128x128 .bf16) (v19 : Vec Ideal S128 .f32) (p : Fin 2000) :
    Gen.k1_pay5 (F := Ideal) v3 v5 v12 v14 v16 v19 (ix2 p (0 : Fin 1)) = Cert.Spec.mean (combB v3 v5 v12 v14 v16 v19 p) := by
  unfold Gen.k1_pay5 Cert.Spec.mean
  refine (rowMean_apply _ _ _ _ _ p).trans ?_
  exact congrArg (fun z => Ideal.div z Cert.Spec.c128) (Finset.sum_congr rfl fun k _ => pay_comb v3 v5 v12 v14 v16 v19 p k)

/-- The combination block with each row's mean taken off. -/
theorem pay_ctr (v3 : Vec Ideal S2000x128 .f32) (v5 : Vec Ideal S2000x1 .f32) (v12 : Vec Ideal S2000x128 .bf16)
    (v14 : Vec Ideal S128x128 .bf16) (v16 : Vec Ideal S128x128 .bf16) (v19 : Vec Ideal S128 .f32) (p : Fin 2000) (q : Fin 128) :
    Gen.k1_pay7 (F := Ideal) v3 v5 v12 v14 v16 v19 (ix2 p q)
      = combB v3 v5 v12 v14 v16 v19 p q - Cert.Spec.mean (combB v3 v5 v12 v14 v16 v19 p) := by
  unfold Gen.k1_pay7
  show Gen.k1_pay4 (F := Ideal) v3 v5 v12 v14 v16 v19 (ix2 p q)
      - broadcastTo S2000x128 (Gen.k1_pay5 (F := Ideal) v3 v5 v12 v14 v16 v19) Gen.broadcasts_S2000x1_S2000x128 (ix2 p q) = _
  refine congrArg₂ (· - ·) (pay_comb v3 v5 v12 v14 v16 v19 p q) ?_
  exact (broadcastTo_a1_ab_apply _ _ p q).trans (pay_mean v3 v5 v12 v14 v16 v19 p)

/-- The row variances of the combination block: at row p the mean of the squared deviations of that row. -/
theorem pay_var (v3 : Vec Ideal S2000x128 .f32) (v5 : Vec Ideal S2000x1 .f32) (v12 : Vec Ideal S2000x128 .bf16)
    (v14 : Vec Ideal S128x128 .bf16) (v16 : Vec Ideal S128x128 .bf16) (v19 : Vec Ideal S128 .f32) (p : Fin 2000) :
    Gen.k1_pay6 (F := Ideal) v3 v5 v12 v14 v16 v19 (ix2 p (0 : Fin 1)) = Cert.Spec.var (combB v3 v5 v12 v14 v16 v19 p) := by
  unfold Gen.k1_pay6 Cert.Spec.var
  refine (rowMean_apply _ _ _ _ _ p).trans ?_
  refine congrArg (fun z => Ideal.div z Cert.Spec.c128) (Finset.sum_congr rfl fun k _ => ?_)
  show Gen.k1_pay7 (F := Ideal) v3 v5 v12 v14 v16 v19 (ix2 p k) * Gen.k1_pay7 (F := Ideal) v3 v5 v12 v14 v16 v19 (ix2 p k) = _
  rw [pay_ctr]

end Cert.KernelIdeal.Pay

end
-- ==== Proof.PayAcc.lean ====
/-
  The accumulator's update read at an index: each row of the centred block is scaled by the reciprocal square root of
  its variance plus the small constant, by the gain, shifted by the offset and cut below at zero; the cut rows are
  summed down each column, and the column sums are added to the accumulator.
-/
import proofs.«114922_j51153060495543_2_alg».proof.Proof.Spec
import proofs.«114922_j51153060495543_2_alg».proof.Proof.Gen.KernelIdeal.Skeleton
import proofs.«114922_j51153060495543_2_alg».proof.Proof.PayNorm
import proofs.«114922_j51153060495543_2_alg».proof.Proof.LibKeepdims
import Idealize.ShloMosaic.Lib.ValueLayout

noncomputable section

open scoped BigOperators

namespace Cert.KernelIdeal.Pay

open Idealize.ShloMosaic Idealize.ShloMosaic.ValueIdx Cert.KernelIdeal

/-- Along axis 0 of a matrix, column q with row p put back is the entry (p, q). -/
theorem lift_col {a b : ℕ} (hred : (⟨2, ![a, b]⟩ : Shape).Reduces [0] ⟨1, ![b]⟩) (q : Fin b) (p : Fin a) :
    hred.lift (ix1 q) p = ix2 p q := by
  funext ax
  match ax with
  | ⟨0, _⟩ => exact Fin.ext rfl
  | ⟨1, _⟩ => exact Fin.ext rfl

/-- The sum over axis 0 of an [a, b] block, from the zero word, read at column q: the sum over the rows. -/
theorem colSum_apply {a b : ℕ} (v : FVec Ideal ⟨2, ![a, b]⟩ .f32)
    (hred : (⟨2, ![a, b]⟩ : Shape).Reduces [0] ⟨1, ![b]⟩) (hφ : FKind.Formats .f32)
    (hacc : (0x00000000#32 : BitVec 32) = 0x00000000#32) (q : Fin b) :
    multiReduction (F := Ideal) .add [0] ⟨1, ![b]⟩ v 0x00000000#32 hred hφ hacc (ix1 q) = ∑ p : Fin a, v (ix2 p q) :=
  (Ideal.multiReduction_add_single (φ := .f32) v 0x00000000#32 hred hφ hacc (ix1 q)).trans
    (Finset.sum_congr rfl fun p _ => congrArg v (lift_col hred q p))

/-- The update over any variance column and centred block: at column q the accumulator plus the sum over the rows of
    max (((c[p,q] · rsqrt (s[p] + ε)) · g[q]) + b[q]) 0. -/
theorem pay_acc_of (v35 : FVec Ideal S2000x1 .f32) (v37 : FVec Ideal S2000x128 .f32) (v43 : Vec Ideal S128 .f32)
    (v47 : Vec Ideal S128 .f32) (v53 : Vec Ideal S1x128 .f32) (q : Fin 128) :
    Gen.k1_pay1 (F := Ideal) v35 v37 v43 v47 v53 (ix2 (0 : Fin 1) q)
      = v53 (ix2 (0 : Fin 1) q) + ∑ p : Fin 2000,
          max ((((v37 (ix2 p q)) * Ideal.rsqrt (v35 (ix2 p (0 : Fin 1)) + Cert.Spec.eps)) * v43 (ix1 q)) + v47 (ix1 q)) 0 := by
  unfold Gen.k1_pay1
  rw [shapeCast_self]
  refine congrArg (fun z => v53 (ix2 (0 : Fin 1) q) + z) ?_
  refine (shapeCast_a_1a_apply _ _ (0 : Fin 1) q).trans ?_
  refine (colSum_apply _ _ _ _ q).trans ?_
  refine Finset.sum_congr rfl fun p _ => ?_
  show max (((v37 (ix2 p q)
        * broadcastTo S2000x128 (rsqrt (addf v35 (broadcast S2000x1 (Scalar.ofBits (F := Ideal) .f32 0x3727C5AC#32))))
            Gen.broadcasts_S2000x1_S2000x128 (ix2 p q))
        * broadcastTo S2000x128 (shapeCast S1x128 v43 Gen.shapeCasts_S128_S1x128) Gen.broadcasts_S1x128_S2000x128 (ix2 p q))
        + broadcastTo S2000x128 (shapeCast S1x128 v47 Gen.shapeCasts_S128_S1x128) Gen.broadcasts_S1x128_S2000x128 (ix2 p q))
      (Ideal.ofBits .f32 0x00000000#32) = _
  rw [Ideal.ofBits_zero_f32, broadcastTo_a1_ab_apply, broadcastTo_1b_ab_apply, broadcastTo_1b_ab_apply,
    shapeCast_a_1a_apply, shapeCast_a_1a_apply]
  rfl

/-- The accumulator's update of the combination block: the accumulator plus the sum over the block's rows of the
    normalised, scaled, shifted and cut row. -/
theorem pay_acc (v3 : Vec Ideal S2000x128 .f32) (v5 : Vec Ideal S2000x1 .f32) (v12 : Vec Ideal S2000x128 .bf16)
    (v14 : Vec Ideal S128x128 .bf16) (v16 : Vec Ideal S128x128 .bf16) (v19 : Vec Ideal S128 .f32)
    (v43 : Vec Ideal S128 .f32) (v47 : Vec Ideal S128 .f32) (v53 : Vec Ideal S1x128 .f32) (q : Fin 128) :
    Gen.k1_pay1 (F := Ideal) (Gen.k1_pay6 v3 v5 v12 v14 v16 v19) (Gen.k1_pay7 v3 v5 v12 v14 v16 v19) v43 v47 v53 (ix2 (0 : Fin 1) q)
      = v53 (ix2 (0 : Fin 1) q) + ∑ p : Fin 2000,
          Cert.Spec.act (fun j => v43 (ix1 j)) (fun j => v47 (ix1 j)) (combB v3 v5 v12 v14 v16 v19 p) q := by
  refine (pay_acc_of _ _ v43 v47 v53 q).trans ?_
  refine congrArg (fun z => v53 (ix2 (0 : Fin 1) q) + z) (Finset.sum_congr rfl fun p _ => ?_)
  rw [pay_ctr, pay_var]
  rfl

end Cert.KernelIdeal.Pay

end
-- ==== Proof.PayOut.lean ====
/-
  The accumulator's first value and the last map read at an index: the accumulator starts at zero; at the end it is
  scaled by 1/50000, multiplied by the last weight and shifted by the last offset.
-/
import proofs.«114922_j51153060495543_2_alg».proof.Proof.Spec
import proofs.«114922_j51153060495543_2_alg».proof.Proof.Gen.KernelIdeal.Skeleton
import proofs.«114922_j51153060495543_2_alg».proof.Proof.LibDense
import Idealize.ShloMosaic.Lib.ValueLayout

noncomputable section

open scoped BigOperators

namespace Cert.KernelIdeal.Pay

open Idealize.ShloMosaic Idealize.ShloMosaic.ValueIdx Cert.KernelIdeal

/-- Where the 1 x 128 by 128 x 128 product reads its operands: the left one at (row, position), the right one at
    (position, column). -/
theorem dotO_l0 (i : S1x128.Idx) (k : dot_S1x128_S128x128_S1x128_1_0_0_1_n_n.contr.Idx) :
    (dot_S1x128_S128x128_S1x128_1_0_0_1_n_n.lhsIdx i k 0).val = (i 0).val := by
  unfold DotDims.lhsIdx
  rw [dif_neg (show ¬(0 : Fin S1x128.rank) ∈ dot_S1x128_S128x128_S1x128_1_0_0_1_n_n.lhsBatch by decide),
    dif_pos (show (0 : Fin S1x128.rank) ∈ dot_S1x128_S128x128_S1x128_1_0_0_1_n_n.lhsNonContracting by decide)]
  rfl
theorem dotO_l1 (i : S1x128.Idx) (k : dot_S1x128_S128x128_S1x128_1_0_0_1_n_n.contr.Idx) :
    (dot_S1x128_S128x128_S1x128_1_0_0_1_n_n.lhsIdx i k 1).val = (k ⟨0, by decide⟩).val :=
  dot_S1x128_S128x128_S1x128_1_0_0_1_n_n.lhsIdx_val_of_single rfl i k
theorem dotO_r0 (i : S1x128.Idx) (k : dot_S1x128_S128x128_S1x128_1_0_0_1_n_n.contr.Idx) :
    (dot_S1x128_S128x128_S1x128_1_0_0_1_n_n.rhsIdx i k 0).val = (k ⟨0, by decide⟩).val :=
  dot_S1x128_S128x128_S1x128_1_0_0_1_n_n.rhsIdx_val_of_single rfl i k
theorem dotO_r1 (i : S1x128.Idx) (k : dot_S1x128_S128x128_S1x128_1_0_0_1_n_n.contr.Idx) :
    (dot_S1x128_S128x128_S1x128_1_0_0_1_n_n.rhsIdx i k 1).val = (i 1).val := by
  unfold DotDims.rhsIdx
  rw [dif_neg (show ¬(1 : Fin S128x128.rank) ∈ dot_S1x128_S128x128_S1x128_1_0_0_1_n_n.rhsBatch by decide),
    dif_pos (show (1 : Fin S128x128.rank) ∈ dot_S1x128_S128x128_S1x128_1_0_0_1_n_n.rhsNonContracting by decide)]
  rfl

/-- The named scale denotes the rational 1/50000. -/
theorem inv_50000 : Named.named (F := Ideal) Cert.KernelIdeal.κ "inv_50000" (φ := .f32) 0x37A7C5AC#32 = ((1 / 50000 : ℝ) : EReal) :=
  IdealRules.named_const.ideal_named_scalar _ _ _ _ rfl

/-- The accumulator's first value is zero everywhere. -/
theorem pay_zero (q : Fin 128) : Gen.k1_pay3 (F := Ideal) (ix2 (0 : Fin 1) q) = 0 := by
  unfold Gen.k1_pay3
  rw [shapeCast_self]
  exact Ideal.ofBits_zero_f32

/-- The result row at column q: (∑ₖ (acc[k] · 1/50000) · wo[k,q]) + bo[q]. -/
theorem pay_out (v63 : Vec Ideal S1x128 .f32) (v67 : Vec Ideal S128x128 .bf16) (v70 : Vec Ideal S128 .f32) (q : Fin 128) :
    Gen.k1_pay2 (F := Ideal) v63 v67 v70 (ix2 (0 : Fin 1) q)
      = Cert.Spec.out (fun k => v63 (ix2 (0 : Fin 1) k)) (fun j k => v67 (ix2 k j)) (fun j => v70 (ix1 j)) q := by
  unfold Gen.k1_pay2 Cert.Spec.out
  show FloatOps.matmul dot_S1x128_S128x128_S1x128_1_0_0_1_n_n none
        (truncf .bf16 (mulf v63 (broadcast S1x128 (Named.named (F := Ideal) Cert.KernelIdeal.κ "inv_50000" (φ := .f32) 0x37A7C5AC#32)))
          Gen.bitsLt_bf16_f32 : FVec Ideal S1x128 .bf16)
        (shapeCast S128x128 v67 Gen.shapeCasts_S128x128_S128x128 : FVec Ideal S128x128 .bf16)
        (constant S1x128 .f32 0x00000000#32) (ix2 (0 : Fin 1) q)
      + shapeCast S1x128 v70 Gen.shapeCasts_S128_S1x128 (ix2 (0 : Fin 1) q) = _
  refine congrArg₂ (· + ·) ?_ (shapeCast_a_1a_apply _ _ _ q)
  refine (matmul_zero_plain_apply dot_S1x128_S128x128_S1x128_1_0_0_1_n_n none rfl rfl dotO_l0 dotO_l1 dotO_r0 dotO_r1 _ _ (0 : Fin 1) q).trans ?_
  refine Finset.sum_congr rfl fun k _ => ?_
  show (v63 (ix2 (0 : Fin 1) k) * Named.named (F := Ideal) Cert.KernelIdeal.κ "inv_50000" (φ := .f32) 0x37A7C5AC#32)
      * shapeCast S128x128 v67 Gen.shapeCasts_S128x128_S128x128 (ix2 k q) = _
  rw [shapeCast_self, inv_50000]

end Cert.KernelIdeal.Pay

end
-- ==== Proof.PayBridge.lean ====
/-
  The combination on a block is the combination of the whole arrays at the rows the block holds: when a block's row p
  is the arrays' row n and the weights arrive transposed, the two agree at every column.
-/
import proofs.«114922_j51153060495543_2_alg».proof.Proof.Spec
import proofs.«114922_j51153060495543_2_alg».proof.Proof.Gen.KernelIdeal.Skeleton
import proofs.«114922_j51153060495543_2_alg».proof.Proof.PayComb

noncomputable section

open scoped BigOperators

namespace Cert.KernelIdeal.Pay

open Idealize.ShloMosaic Idealize.ShloMosaic.ValueIdx Cert.KernelIdeal

/-- If row p of the blocks is row n of the arrays (the aggregate, the degree, the projected rows) and the weight
    blocks are the transposed weights, the block combination of row p is the combination of row n. -/
theorem combB_eq_comb (agg : Fin 50000 → Fin 128 → EReal) (deg : Fin 50000 → EReal) (h : Fin 50000 → Fin 128 → EReal)
    (wl : Fin 128 → Fin 128 → EReal) (bl : Fin 128 → EReal) (wr : Fin 128 → Fin 128 → EReal)
    (v3 : Vec Ideal S2000x128 .f32) (v5 : Vec Ideal S2000x1 .f32) (v12 : Vec Ideal S2000x128 .bf16)
    (v14 : Vec Ideal S128x128 .bf16) (v16 : Vec Ideal S128x128 .bf16) (v19 : Vec Ideal S128 .f32)
    (n : Fin 50000) (p : Fin 2000)
    (h3 : ∀ k : Fin 128, v3 (ix2 p k) = agg n k) (h5 : v5 (ix2 p (0 : Fin 1)) = deg n)
    (h12 : ∀ k : Fin 128, v12 (ix2 p k) = h n k)
    (h14 : ∀ k q : Fin 128, v14 (ix2 k q) = wl q k) (h16 : ∀ k q : Fin 128, v16 (ix2 k q) = wr q k)
    (h19 : ∀ q : Fin 128, v19 (ix1 q) = bl q) :
    combB v3 v5 v12 v14 v16 v19 p = Cert.Spec.comb agg deg h wl bl wr n := by
  funext q
  unfold combB Cert.Spec.comb Cert.Spec.nbr
  rw [h5, h19 q]
  refine congrArg₂ (· + ·) (congrArg (· + bl q) (Finset.sum_congr rfl fun k _ => ?_)) (Finset.sum_congr rfl fun k _ => ?_)
  · rw [h3 k, h14 k q]
  · rw [h12 k, h16 k q]

end Cert.KernelIdeal.Pay

end
-- ==== Proof.PayStep.lean ====
/-
  One tile's update of the running row and the last map, over the whole arrays: when the blocks a tile loads are the
  arrays' rows from row n₀ on and the whole weights, the updated row is the carried row plus the sum, over the tile's
  2000 rows, of the normalised, scaled, shifted and cut combination of each row; and the last map of a row is the
  specification's result of it.
-/
import proofs.«114922_j51153060495543_2_alg».proof.Proof.Spec
import proofs.«114922_j51153060495543_2_alg».proof.Proof.Gen.KernelIdeal.Skeleton
import proofs.«114922_j51153060495543_2_alg».proof.Proof.PayAcc
import proofs.«114922_j51153060495543_2_alg».proof.Proof.PayOut
import proofs.«114922_j51153060495543_2_alg».proof.Proof.PayBridge

noncomputable section

open scoped BigOperators

namespace Cert.KernelIdeal.Pay

open Idealize.ShloMosaic Idealize.ShloMosaic.ValueIdx Cert.KernelIdeal

/-- The row after a tile, at column q: the carried row plus the tile's rows' contributions. -/
theorem step_of (agg : Fin 50000 → Fin 128 → EReal) (deg : Fin 50000 → EReal) (h : Fin 50000 → Fin 128 → EReal)
    (wl : Fin 128 → Fin 128 → EReal) (bl : Fin 128 → EReal) (wr : Fin 128 → Fin 128 → EReal) (g b : Fin 128 → EReal)
    (x0 : Vec Ideal S2000x128 .f32) (x1 : Vec Ideal S2000x1 .f32) (x2 : Vec Ideal S2000x128 .bf16)
    (x3 : Vec Ideal S128x128 .bf16) (x4 : Vec Ideal S128 .f32) (x5 : Vec Ideal S128x128 .bf16)
    (x6 : Vec Ideal S128 .f32) (x7 : Vec Ideal S128 .f32) (xs : Vec Ideal S1x128 .f32)
    (n₀ : ℕ) (hn : n₀ + 2000 ≤ 50000)
    (h0 : ∀ (p : Fin 2000) (k : Fin 128), x0 (ix2 p k) = agg ⟨n₀ + p.val, by omega⟩ k)
    (h1 : ∀ p : Fin 2000, x1 (ix2 p (0 : Fin 1)) = deg ⟨n₀ + p.val, by omega⟩)
    (h2 : ∀ (p : Fin 2000) (k : Fin 128), x2 (ix2 p k) = h ⟨n₀ + p.val, by omega⟩ k)
    (h3 : ∀ k q : Fin 128, x3 (ix2 k q) = wl q k) (h4 : ∀ q : Fin 128, x4 (ix1 q) = bl q)
    (h5 : ∀ k q : Fin 128, x5 (ix2 k q) = wr q k)
    (h6 : ∀ j : Fin 128, x6 (ix1 j) = g j) (h7 : ∀ j : Fin 128, x7 (ix1 j) = b j) (q : Fin 128) :
    Gen.k1_pay1 (F := Ideal) (Gen.k1_pay6 x0 x1 x2 x3 x5 x4) (Gen.k1_pay7 x0 x1 x2 x3 x5 x4) x6 x7 xs (ix2 (0 : Fin 1) q)
      = xs (ix2 (0 : Fin 1) q)
        + ∑ p : Fin 2000, Cert.Spec.act g b (Cert.Spec.comb agg deg h wl bl wr ⟨n₀ + p.val, by omega⟩) q := by
  refine (pay_acc x0 x1 x2 x3 x5 x4 x6 x7 xs q).trans ?_
  refine congrArg (fun z => xs (ix2 (0 : Fin 1) q) + z) (Finset.sum_congr rfl fun p _ => ?_)
  rw [combB_eq_comb agg deg h wl bl wr x0 x1 x2 x3 x5 x4 ⟨n₀ + p.val, by omega⟩ p (h0 p) (h1 p) (h2 p) h3 h5 h4,
    show (fun j => x6 (ix1 j)) = g from funext h6, show (fun j => x7 (ix1 j)) = b from funext h7]

/-- The last map of a row, at column q, over the whole last weight and offset. -/
theorem last_of (wo : Fin 128 → Fin 128 → EReal) (bo : Fin 128 → EReal) (r : Fin 128 → EReal)
    (x8 : Vec Ideal S128x128 .bf16) (x9 : Vec Ideal S128 .f32) (row : Vec Ideal S1x128 .f32)
    (h8 : ∀ k q : Fin 128, x8 (ix2 k q) = wo q k) (h9 : ∀ q : Fin 128, x9 (ix1 q) = bo q)
    (hr : ∀ k : Fin 128, row (ix2 (0 : Fin 1) k) = r k) (q : Fin 128) :
    Gen.k1_pay2 (F := Ideal) row x8 x9 (ix2 (0 : Fin 1) q) = Cert.Spec.out r wo bo q := by
  refine (pay_out row x8 x9 q).trans ?_
  rw [show (fun k => row (ix2 (0 : Fin 1) k)) = r from funext hr,
    show (fun j k => x8 (ix2 k j)) = wo from funext fun j => funext fun k => h8 k j,
    show (fun j => x9 (ix1 j)) = bo from funext h9]

end Cert.KernelIdeal.Pay

end
-- ==== Proof.LibTiles.lean ====
/-
  Sums taken tile by tile: general facts about finite sums in a commutative monoid, independent of any program.

  A quantity indexed by the points `0, 1, 2, …` of a grid that is RESET to `Z + M n` at every point `n` divisible by
  `J` and STEPS by `+ M n` at every other point is, at the point `J·q + j` with `j < J`, the reset value plus the terms of
  the run `J·q, …, J·q + j`. And a sum over `A` runs of `J` tiles of `B` rows each, every tile summed over its rows, is the
  sum over all `A·J·B` rows: row `r` of tile `t` is row `B·t + r`, tile `s` of run `q` is tile `J·q + s`.
-/
import Mathlib.Algebra.BigOperators.Fin
import Mathlib.Algebra.BigOperators.Intervals
import Mathlib.Logic.Equiv.Fin.Basic

open scoped BigOperators

namespace Cert.LibTiles

variable {β : Type*} [AddCommMonoid β]

/-- THE RUNNING SUM IN CLOSED FORM: reset at the multiples of `J` (`h0`), stepped elsewhere (`hs`). -/
theorem acc_closed {N : ℕ} (f : (n : ℕ) → n < N → β) (J : ℕ) (Z : β) (M : ℕ → β)
    (h0 : ∀ (n : ℕ) (h : n < N), n % J = 0 → f n h = Z + M n)
    (hs : ∀ (n : ℕ) (h : n + 1 < N), ¬(n + 1) % J = 0 → f (n + 1) h = f n (Nat.lt_of_succ_lt h) + M (n + 1))
    (q : ℕ) : ∀ (j : ℕ) (_ : j < J) (h : J * q + j < N),
      f (J * q + j) h = Z + ∑ s ∈ Finset.range (j + 1), M (J * q + s)
  | 0, _, h => by
    rw [Finset.sum_range_one]
    exact h0 _ h (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Finset.sum_range_succ _ (j + 1), ← add_assoc Z,
      ← acc_closed f J Z M h0 hs q j (Nat.lt_of_succ_lt hj) (Nat.lt_of_succ_lt h)]
    exact hs (J * q + j) h hne

/-- A sum over `A` tiles of `B` rows, tile by tile, is the sum over the `A·B` rows: row `r` of tile `k` is row `B·k + r`. -/
theorem sum_tiles (A B : ℕ) (φ : ℕ → β) :
    ∑ k : Fin A, ∑ r : Fin B, φ (B * k.val + r.val) = ∑ h : Fin (A * B), φ h.val := by
  rw [← Fintype.sum_prod_type' (fun (k : Fin A) (r : Fin B) => φ (B * k.val + r.val))]
  refine Fintype.sum_equiv finProdFinEquiv _ _ fun p => congrArg φ ?_
  show B * p.1.val + p.2.val = p.2.val + B * p.1.val
  exact Nat.add_comm _ _

/-- THE REGROUPED SUM: `A` runs of `J` tiles of `B` rows, summed rows first, then tiles of a run, then runs, is the sum
    over all the `N = A·J·B` rows. -/
theorem sum_runs_tiles_rows {A J B N : ℕ} (hN : A * J * B = N) (φ : ℕ → β) :
    ∑ q : Fin A, ∑ s ∈ Finset.range J, ∑ r : Fin B, φ (B * (J * q.val + s) + r.val) = ∑ h : Fin N, φ h.val := by
  subst hN
  rw [← sum_tiles (A * J) B φ, ← sum_tiles A J (fun t => ∑ r : Fin B, φ (B * t + r.val))]
  refine Finset.sum_congr rfl fun q _ => ?_
  rw [Finset.sum_range]

end Cert.LibTiles
-- ==== Proof.ValueCombRow.lean ====
/-
  The second region's running row in closed form: after tile t the scratch row holds, at every column, the sum over
  the rows of tiles 0 … t of the normalised, scaled, shifted and cut combination of each row; after the last tile that
  is the sum over all 50000 rows, and the result array ends holding the specification's result row.
-/
import proofs.«114922_j51153060495543_2_alg».proof.Proof.Spec
import proofs.«114922_j51153060495543_2_alg».proof.Proof.FrameCombI
import proofs.«114922_j51153060495543_2_alg».proof.Proof.ValueCombPieces
import proofs.«114922_j51153060495543_2_alg».proof.Proof.ValueCombBlocks
import proofs.«114922_j51153060495543_2_alg».proof.Proof.PayStep
import proofs.«114922_j51153060495543_2_alg».proof.Proof.LibTiles
import Idealize.ShloMosaic.Lib.Pipeline.Value

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays as the region finds them, by coordinates -/

abbrev aggA (c : Dev nD) : Fin 50000 → Fin 128 → EReal := fun n k => (V c main_v17 : Vec Ideal S50000x128 .f32) (ix2 n k)
abbrev degA (c : Dev nD) : Fin 50000 → EReal := fun n => (V c main_v22 : Vec Ideal S50000x1 .f32) (ix2 n (0 : Fin 1))
abbrev hA (c : Dev nD) : Fin 50000 → Fin 128 → EReal := fun n k => (V c main_v2 : Vec Ideal S50000x128 .bf16) (ix2 n k)
abbrev wlA (c : Dev nD) : Fin 128 → Fin 128 → EReal := fun j k => (V c main_v24 : Vec Ideal S128x128 .bf16) (ix2 k j)
abbrev blA (c : Dev nD) : Fin 128 → EReal := fun j => (V c main_arg5 : Vec Ideal S128 .f32) (ix1 j)
abbrev wrA (c : Dev nD) : Fin 128 → Fin 128 → EReal := fun j k => (V c main_v26 : Vec Ideal S128x128 .bf16) (ix2 k j)
abbrev gA (c : Dev nD) : Fin 128 → EReal := fun j => (V c main_arg7 : Vec Ideal S128 .f32) (ix1 j)
abbrev bA (c : Dev nD) : Fin 128 → EReal := fun j => (V c main_arg8 : Vec Ideal S128 .f32) (ix1 j)
abbrev woA (c : Dev nD) : Fin 128 → Fin 128 → EReal := fun j k => (V c main_v28 : Vec Ideal S128x128 .bf16) (ix2 k j)
abbrev boA (c : Dev nD) : Fin 128 → EReal := fun j => (V c main_arg10 : Vec Ideal S128 .f32) (ix1 j)

/-- Row n's contribution to column q of the running row, by row number (zero past the last row). -/
def rowTerm (c : Dev nD) (q : Fin 128) (n : ℕ) : EReal :=
  if hn : n < 50000 then
    Cert.Spec.act (gA V c) (bA V c) (Cert.Spec.comb (aggA V c) (degA V c) (hA V c) (wlA V c) (blA V c) (wrA V c) ⟨n, hn⟩) q
  else 0

/-- One tile's update of any carried row: the row plus the tile's 2000 rows' contributions. -/
theorem step1 (c : Dev nD) (t : Fin cfg1.N) (xs : Vec Ideal S1x128 .f32) (q : Fin 128) :
    Gen.k1_pay1 (F := Ideal) (Gen.k1_pay6 (Fr.iblk1 V c 0 t) (Fr.iblk1 V c 1 t) (Fr.iblk1 V c 2 t) (Fr.iblk1 V c 3 t) (Fr.iblk1 V c 5 t) (Fr.iblk1 V c 4 t)) (Gen.k1_pay7 (Fr.iblk1 V c 0 t) (Fr.iblk1 V c 1 t) (Fr.iblk1 V c 2 t) (Fr.iblk1 V c 3 t) (Fr.iblk1 V c 5 t) (Fr.iblk1 V c 4 t)) (Fr.iblk1 V c 6 t) (Fr.iblk1 V c 7 t) xs (ix2 (0 : Fin 1) q)
      = xs (ix2 (0 : Fin 1) q) + ∑ p : Fin 2000, rowTerm V c q (2000 * t.val + p.val) := by
  have ht : t.val < 25 := lt_of_lt_of_eq t.isLt Gen.N_1
  refine (Pay.step_of (aggA V c) (degA V c) (hA V c) (wlA V c) (blA V c) (wrA V c) (gA V c) (bA V c)
    (Fr.iblk1 V c 0 t) (Fr.iblk1 V c 1 t) (Fr.iblk1 V c 2 t) (Fr.iblk1 V c 3 t) (Fr.iblk1 V c 4 t) (Fr.iblk1 V c 5 t) (Fr.iblk1 V c 6 t) (Fr.iblk1 V c 7 t) xs
    (2000 * t.val) (by omega)
    (fun p k => iblk1_agg V c t p k _) (fun p => iblk1_deg V c t p (0 : Fin 1) _) (fun p k => iblk1_h V c t p k _)
    (fun k q => iblk1_wl V c t k q) (fun q => iblk1_bl V c t q) (fun k q => iblk1_wr V c t k q)
    (fun j => iblk1_g V c t j) (fun j => iblk1_b V c t j) q).trans ?_
  refine congrArg (fun z => xs (ix2 (0 : Fin 1) q) + z) (Finset.sum_congr rfl fun p _ => ?_)
  unfold rowTerm
  rw [dif_pos (by have := p.isLt; omega)]

/-- THE RUNNING ROW after tile n: the contributions of the rows of tiles 0 … n. -/
theorem row_closed (c : Dev nD) : ∀ (n : ℕ) (hn : n < cfg1.N) (q : Fin 128),
    (Fr.outsAt1 (F := Ideal) V c n hn).2 (ix2 (0 : Fin 1) q)
      = ∑ s ∈ Finset.range (n + 1), ∑ p : Fin 2000, rowTerm V c q (2000 * s + p.val)
  | 0, hn, q => by
    refine (congrFun (congrArg Prod.snd (Fr.outsAt1_A (F := Ideal) V c ⟨0, hn⟩ rfl (show ¬ (0 : ℕ) = 24 by decide))) (ix2 (0 : Fin 1) q)).trans ?_
    simp only [sout1_A_eq]
    refine (step1 V c ⟨0, hn⟩ _ q).trans ?_
    rw [Pay.pay_zero, zero_add, Finset.sum_range_one]
  | n + 1, hn, q => by
    have ih := row_closed c n (Nat.lt_of_succ_lt hn) q
    rw [Finset.sum_range_succ, ← ih]
    by_cases h1 : n + 1 = 24
    · refine (congrFun (congrArg Prod.snd (Fr.outsAt1_C (F := Ideal) V c ⟨n + 1, hn⟩ (Nat.succ_ne_zero n) h1)) (ix2 (0 : Fin 1) q)).trans ?_
      simp only [sout1_C_eq]
      exact step1 V c ⟨n + 1, hn⟩ _ q
    · refine (congrFun (congrArg Prod.snd (Fr.outsAt1_B (F := Ideal) V c ⟨n + 1, hn⟩ (Nat.succ_ne_zero n) h1)) (ix2 (0 : Fin 1) q)).trans ?_
      simp only [sout1_B_eq]
      exact step1 V c ⟨n + 1, hn⟩ _ q

/-- After the last tile the running row is the sum over all 50000 rows. -/
theorem row_last (c : Dev nD) (hn : 24 < cfg1.N) (q : Fin 128) :
    (Fr.outsAt1 (F := Ideal) V c 24 hn).2 (ix2 (0 : Fin 1) q)
      = Cert.Spec.pool (fun n => Cert.Spec.act (gA V c) (bA V c)
          (Cert.Spec.comb (aggA V c) (degA V c) (hA V c) (wlA V c) (blA V c) (wrA V c) n)) q := by
  rw [row_closed V c 24 hn q, Finset.sum_range (fun s => ∑ p : Fin 2000, rowTerm V c q (2000 * s + p.val))]
  refine (Cert.LibTiles.sum_tiles 25 2000 (rowTerm V c q)).trans ?_
  unfold Cert.Spec.pool
  show ∑ n : Fin 50000, rowTerm V c q n.val = _
  refine Finset.sum_congr rfl fun n _ => ?_
  unfold rowTerm
  rw [dif_pos n.isLt]

/-! ## The result array -/

/-- The specification's result row, as an array of one row. -/
abbrev resRow (c : Dev nD) : Vec Ideal S1x128 .f32 := fun i =>
  Cert.Spec.tail (aggA V c) (degA V c) (hA V c) (wlA V c) (blA V c) (wrA V c) (gA V c) (bA V c) (woA V c) (boA V c)
    (⟨(i 1).val, idx2_lt1 i⟩ : Fin 128)

theorem resRow_apply (c : Dev nD) (u : Fin 1) (q : Fin 128) :
    resRow V c (ix2 u q)
      = Cert.Spec.tail (aggA V c) (degA V c) (hA V c) (wlA V c) (blA V c) (wrA V c) (gA V c) (bA V c) (woA V c) (boA V c) q := rfl

/-- What the last tile writes back is the result row. -/
theorem flushed10_eq (c : Dev nD) (t : Fin cfg1.N) (hf : (cfg1.win 10).flush t = true) :
    (Fr.dat1 (F := Ideal) V c).flushed 10 t = ((cfg1.win 10).blk t).view.read (Elt Ideal) (resRow V c) := by
  have hN : cfg1.N = 25 := Gen.N_1
  have h24 : t.val = 24 := by have := (Gen.flush1_10 t).mp hf; have := t.isLt; omega
  obtain ⟨n, hn⟩ := t
  obtain rfl : n = 24 := h24
  show (cfg1.win 10).cut (grid1.coords ⟨24, hn⟩) ((Fr.dat1 (F := Ideal) V c).after 10 ⟨24, hn⟩) = _
  rw [Fr.after1_10]
  have e0 : win1_10.index ⟨24, hn⟩ (0 : Fin 2) = 0 := (idx1_whole ⟨24, hn⟩).2.2.2.2.2.2.2.2.2.2.1
  have e1 : win1_10.index ⟨24, hn⟩ (1 : Fin 2) = 0 := (idx1_whole ⟨24, hn⟩).2.2.2.2.2.2.2.2.2.2.2
  have e := Fr.outsAt1_C (F := Ideal) V c ⟨24, hn⟩ (show ¬ (24 : ℕ) = 0 by decide) rfl
  funext y
  have hp : (y 0).val < 1 := (y 0).isLt
  have hq : (y 1).val < 128 := (y 1).isLt
  have hL : (cfg1.win 10).xinj (grid1.coords ⟨24, hn⟩) y = ix2 (0 : Fin 1) (⟨(y 1).val, hq⟩ : Fin 128) := by
    funext a
    match a with
    | ⟨0, _⟩ => exact Fin.ext (by show (y 0).val = 0; omega)
    | ⟨1, _⟩ => rfl
  have hR : ((cfg1.win 10).blk ⟨24, hn⟩).view.emb y = ix2 (0 : Fin 1) (⟨(y 1).val, hq⟩ : Fin 128) := by
    funext a
    apply Fin.ext
    match a with
    | ⟨0, _⟩ => show win1_10.index ⟨24, hn⟩ 0 * 1 + 1 * (y 0).val = 0; rw [e0]; omega
    | ⟨1, _⟩ => show win1_10.index ⟨24, hn⟩ 1 * 128 + 1 * (y 1).val = (y 1).val; rw [e1]; omega
  show (Fr.outsAt1 (F := Ideal) V c 24 hn).1 ((cfg1.win 10).xinj (grid1.coords ⟨24, hn⟩) y)
    = resRow V c (((cfg1.win 10).blk ⟨24, hn⟩).view.emb y)
  rw [hL, hR, resRow_apply]
  refine (congrFun (congrArg Prod.fst e) _).trans ?_
  simp only [out1_C_eq]
  refine Pay.last_of (woA V c) (boA V c) _ _ _ _ (fun k q => iblk1_wo V c ⟨24, hn⟩ k q) (fun q => iblk1_bo V c ⟨24, hn⟩ q)
    (fun k => ?_) _
  have e2 : (Fr.outsAt1 (F := Ideal) V c 24 hn).2 (ix2 (0 : Fin 1) k)
      = Gen.k1_pay1 (F := Ideal) (Gen.k1_pay6 (Fr.iblk1 V c 0 ⟨24, hn⟩) (Fr.iblk1 V c 1 ⟨24, hn⟩) (Fr.iblk1 V c 2 ⟨24, hn⟩) (Fr.iblk1 V c 3 ⟨24, hn⟩) (Fr.iblk1 V c 5 ⟨24, hn⟩) (Fr.iblk1 V c 4 ⟨24, hn⟩)) (Gen.k1_pay7 (Fr.iblk1 V c 0 ⟨24, hn⟩) (Fr.iblk1 V c 1 ⟨24, hn⟩) (Fr.iblk1 V c 2 ⟨24, hn⟩) (Fr.iblk1 V c 3 ⟨24, hn⟩) (Fr.iblk1 V c 5 ⟨24, hn⟩) (Fr.iblk1 V c 4 ⟨24, hn⟩)) (Fr.iblk1 V c 6 ⟨24, hn⟩) (Fr.iblk1 V c 7 ⟨24, hn⟩) (Fr.outsAt1 (F := Ideal) V c ((⟨24, hn⟩ : Fin cfg1.N).val - 1) (Nat.lt_of_le_of_lt (Nat.sub_le _ _) (⟨24, hn⟩ : Fin cfg1.N).isLt)).2 (ix2 (0 : Fin 1) k) := by
    refine (congrFun (congrArg Prod.snd e) (ix2 (0 : Fin 1) k)).trans ?_
    simp only [sout1_C_eq]
  exact e2.symm.trans (row_last V c hn k)

/-- Every index of the one-row result array is in the last tile's block, the whole array. -/
theorem cover10 (i : S1x128.Idx) :
    ∃ t : Fin cfg1.N, (cfg1.win 10).flush t = true ∧ i ∈ ((cfg1.win 10).blk t).view.set := by
  have hN : cfg1.N = 25 := Gen.N_1
  have hi0 : (i 0).val < 1 := (i 0).isLt
  have hi1 : (i 1).val < 128 := (i 1).isLt
  have h24 : 24 < cfg1.N := by rw [hN]; omega
  refine ⟨⟨24, h24⟩, (Gen.flush1_10 _).mpr rfl, ?_⟩
  have e0 : win1_10.index ⟨24, h24⟩ (0 : Fin 2) = 0 := (idx1_whole ⟨24, h24⟩).2.2.2.2.2.2.2.2.2.2.1
  have e1 : win1_10.index ⟨24, h24⟩ (1 : Fin 2) = 0 := (idx1_whole ⟨24, h24⟩).2.2.2.2.2.2.2.2.2.2.2
  show i ∈ ((View.whole main_v29).slice (win1_10.rect ⟨24, h24⟩)).set
  rw [View.set_slice_whole, Rect.mem_set_unit]
  intro a
  match a with
  | ⟨0, _⟩ =>
    show win1_10.index ⟨24, h24⟩ (0 : Fin 2) * 1 ≤ (i 0).val ∧ (i 0).val < win1_10.index ⟨24, h24⟩ (0 : Fin 2) * 1 + 1
    rw [e0]; omega
  | ⟨1, _⟩ =>
    show win1_10.index ⟨24, h24⟩ (1 : Fin 2) * 128 ≤ (i 1).val ∧ (i 1).val < win1_10.index ⟨24, h24⟩ (1 : Fin 2) * 128 + 128
    rw [e1]; omega

/-- The result array after the region: the specification's result row. -/
theorem arr_comb (c : Dev nD) : (Fr.dat1 (F := Ideal) V c).arrAt 10 cfg1.N = resRow V c :=
  (Fr.dat1 (F := Ideal) V c).arrAt_eq_of_cover 10 _ (flushed10_eq V c) cover10

end Cert.KernelIdeal.Val

end
-- ==== Proof.RefValueB.lean ====
/-
  The reference's middle stages at an index, in the specification's terms: the neighbourhood mean, the
  combination of the two 128 → 128 maps, and each row's mean, centred entries and variance.
-/
import proofs.«114922_j51153060495543_2_alg».proof.Proof.RefValueA

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- Two rank-2 indices agree when both coordinates do. -/
local macro "ix_eq2" : tactic => `(tactic| (funext a; match a with | ⟨0, _⟩ => rfl | ⟨1, _⟩ => rfl))
/-- Two rank-1 indices agree when the coordinate does. -/
local macro "ix_eq1" : tactic => `(tactic| (funext a; match a with | ⟨0, _⟩ => rfl))

variable (a0 : FVec Ideal S50000x1024 .f32) (a1 : (⟨S2x1600000, .i32⟩ : BufTy).Contents (Elt Ideal))
  (a2 : FVec Ideal S128x1024 .f32) (a3 : FVec Ideal S128 .f32) (a4 : FVec Ideal S128x128 .f32) (a5 : FVec Ideal S128 .f32)
  (a6 : FVec Ideal S128x128 .f32) (a7 a8 : FVec Ideal S128 .f32) (a9 : FVec Ideal S128x128 .f32) (a10 : FVec Ideal S128 .f32)

/-- Row `n` of the combination, from the argument arrays: the specification's `comb` at the segment sums of the
    projected rows. -/
def combOf (n : Fin 50000) (j : Fin 128) : EReal :=
  Cert.Spec.comb (fun n k => aggOf (projVec a0 a2 a3) a1 (ix2 n k)) (fun n => degOf a1 (ix1 n))
    (fun n k => projVec a0 a2 a3 (ix2 n k)) (fun j k => a4 (ix2 j k)) (fun j => a5 (ix1 j)) (fun j k => a6 (ix2 j k)) n j

/-- The neighbourhood mean: the segment sum over the in-degree, the degree raised to at least one. -/
theorem v28_eq (n : Fin 50000) (k : Fin 128) :
    val_main_v28 (F := Ideal) a0 a1 a2 a3 (ix2 n k)
      = Cert.Spec.nbr (fun n k => aggOf (projVec a0 a2 a3) a1 (ix2 n k)) (fun n => degOf a1 (ix1 n)) n k := by
  rw [val_main_v28_apply, val_main_v27_apply, val_main_v26_apply, val_main_v25_apply, val_main_v24_apply,
    val_main_cst_3_apply, val_main_v19_eq, val_main_v23_eq, val_main_v5_eq]
  have e : idx_main_v26 (idx_main_v27 (ix2 n k)) = ix1 n := by ix_eq1
  simp only [e, Ideal.hostDivf_def, Ideal.maximumf_def, Ideal.ofBits_def]
  rfl

/-- The two 128 → 128 maps and the offset. -/
theorem v36_eq (n : Fin 50000) (j : Fin 128) :
    val_main_v36 (F := Ideal) a0 a1 a2 a3 a4 a5 a6 (ix2 n j) = combOf a0 a1 a2 a3 a4 a5 a6 n j := by
  rw [val_main_v36_apply, val_main_v33_apply, val_main_v30_apply, val_main_v35_apply, val_main_v32_apply,
    val_main_v31_apply, val_main_v5_eq]
  have e1 : ∀ k : Fin 128, lidx_main_v30 (ix2 n j) k = ix2 n k := fun k => by ix_eq2
  have e2 : ∀ k : Fin 128, idx_main_v29 (ridx_main_v30 (ix2 n j) k) = ix2 j k := fun k => by ix_eq2
  have e3 : ∀ k : Fin 128, lidx_main_v35 (ix2 n j) k = ix2 n k := fun k => by ix_eq2
  have e4 : ∀ k : Fin 128, idx_main_v34 (ridx_main_v35 (ix2 n j) k) = ix2 j k := fun k => by ix_eq2
  have e5 : idx_main_v31 (idx_main_v32 (ix2 n j)) = ix1 j := by ix_eq1
  simp only [val_main_v29_apply, val_main_v34_apply, e1, e2, e3, e4, e5, v28_eq, Ideal.addf_def]
  rfl

/-- A row's mean: the row sum from zero, over 128. -/
theorem v40_eq (n : Fin 50000) :
    val_main_v40 (F := Ideal) a0 a1 a2 a3 a4 a5 a6 (ix2 n (0 : Fin 1))
      = Cert.Spec.mean (combOf a0 a1 a2 a3 a4 a5 a6 n) := by
  rw [val_main_v40_apply, val_main_v38_apply, val_main_v37_apply, val_main_v39_apply, val_main_cst_5_apply,
    val_main_cst_4_apply]
  have e : ∀ k : Fin 128, idx_main_v37 (idx_main_v38 (ix2 n (0 : Fin 1))) k = ix2 n k := fun k => by ix_eq2
  simp only [e, v36_eq, Ideal.hostDivf_def, Ideal.ofBits_def, Ideal.ofBits_zero_f32, zero_add]
  rfl

/-- The centred row. -/
theorem v42_eq (n : Fin 50000) (j : Fin 128) :
    val_main_v42 (F := Ideal) a0 a1 a2 a3 a4 a5 a6 (ix2 n j)
      = combOf a0 a1 a2 a3 a4 a5 a6 n j - Cert.Spec.mean (combOf a0 a1 a2 a3 a4 a5 a6 n) := by
  rw [val_main_v42_apply, val_main_v41_apply, v36_eq]
  have e : idx_main_v41 (ix2 n j) = ix2 n (0 : Fin 1) := by ix_eq2
  rw [e, v40_eq]
  simp only [Ideal.subf_def]

/-- The centred row a second time (the reference forms it twice, from the same mean). -/
theorem v49_eq (n : Fin 50000) (j : Fin 128) :
    val_main_v49 (F := Ideal) a0 a1 a2 a3 a4 a5 a6 (ix2 n j)
      = combOf a0 a1 a2 a3 a4 a5 a6 n j - Cert.Spec.mean (combOf a0 a1 a2 a3 a4 a5 a6 n) := by
  rw [val_main_v49_apply, val_main_v48_apply, v36_eq]
  have e : idx_main_v48 (ix2 n j) = ix2 n (0 : Fin 1) := by ix_eq2
  rw [e, v40_eq]
  simp only [Ideal.subf_def]

/-- The squared centred entry, read at the index the row sum visits. -/
theorem v43_eq (n : Fin 50000) (k : Fin 128) :
    val_main_v43 (F := Ideal) a0 a1 a2 a3 a4 a5 a6 (idx_main_v44 (idx_main_v45 (ix2 n (0 : Fin 1))) k)
      = (combOf a0 a1 a2 a3 a4 a5 a6 n k - Cert.Spec.mean (combOf a0 a1 a2 a3 a4 a5 a6 n))
        * (combOf a0 a1 a2 a3 a4 a5 a6 n k - Cert.Spec.mean (combOf a0 a1 a2 a3 a4 a5 a6 n)) := by
  have e : idx_main_v44 (idx_main_v45 (ix2 n (0 : Fin 1))) k = ix2 n k := by ix_eq2
  rw [e, val_main_v43_apply, v42_eq]
  exact Ideal.mulf_def _ _

/-- A row's variance: the sum from zero of the squared centred entries, over 128. -/
theorem v47_eq (n : Fin 50000) :
    val_main_v47 (F := Ideal) a0 a1 a2 a3 a4 a5 a6 (ix2 n (0 : Fin 1))
      = Cert.Spec.var (combOf a0 a1 a2 a3 a4 a5 a6 n) := by
  rw [val_main_v47_apply, val_main_v45_apply, val_main_v44_apply, val_main_v46_apply, val_main_cst_7_apply,
    val_main_cst_6_apply]
  simp only [v43_eq, Ideal.hostDivf_def, Ideal.ofBits_def, Ideal.ofBits_zero_f32, zero_add]
  rfl

end Cert.ReferenceIdeal.RefValue

end
-- ==== Proof.RefValueC.lean ====
/-
  The reference's last stages at an index, in the specification's terms: the normalised and cut rows, their sum
  over all nodes, the quotient by the node count and the last 128 → 128 map; then the reference's result as a
  function of its eleven argument arrays.
-/
import proofs.«114922_j51153060495543_2_alg».proof.Proof.RefValueB

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- Two rank-2 indices agree when both coordinates do. -/
local macro "ix_eq2" : tactic => `(tactic| (funext a; match a with | ⟨0, _⟩ => rfl | ⟨1, _⟩ => rfl))
/-- Two rank-1 indices agree when the coordinate does. -/
local macro "ix_eq1" : tactic => `(tactic| (funext a; match a with | ⟨0, _⟩ => rfl))

variable (a0 : FVec Ideal S50000x1024 .f32) (a1 : (⟨S2x1600000, .i32⟩ : BufTy).Contents (Elt Ideal))
  (a2 : FVec Ideal S128x1024 .f32) (a3 : FVec Ideal S128 .f32) (a4 : FVec Ideal S128x128 .f32) (a5 : FVec Ideal S128 .f32)
  (a6 : FVec Ideal S128x128 .f32) (a7 a8 : FVec Ideal S128 .f32) (a9 : FVec Ideal S128x128 .f32) (a10 : FVec Ideal S128 .f32)

/-- The normalised, scaled, shifted and cut row. -/
theorem v61_eq (n : Fin 50000) (j : Fin 128) :
    val_main_v61 (F := Ideal) a0 a1 a2 a3 a4 a5 a6 a7 a8 (ix2 n j)
      = Cert.Spec.act (fun j => a7 (ix1 j)) (fun j => a8 (ix1 j)) (combOf a0 a1 a2 a3 a4 a5 a6 n) j := by
  rw [val_main_v61_apply, val_main_v60_apply, val_main_v57_apply, val_main_v54_apply, val_main_v53_apply,
    val_main_v52_apply, val_main_v51_apply, val_main_v50_apply, val_main_cst_8_apply, val_main_v56_apply,
    val_main_v55_apply, val_main_v59_apply, val_main_v58_apply, val_main_call1_v0_apply, val_main_call1_cst_apply,
    v49_eq]
  have e1 : idx_main_v53 (ix2 n j) = ix2 n (0 : Fin 1) := by ix_eq2
  have e2 : idx_main_v55 (idx_main_v56 (ix2 n j)) = ix1 j := by ix_eq1
  have e3 : idx_main_v58 (idx_main_v59 (ix2 n j)) = ix1 j := by ix_eq1
  rw [e1, e2, e3, v47_eq]
  simp only [Ideal.addf_def, Ideal.mulf_def, Ideal.maximumf_def, Ideal.hostUnary_rsqrt_def, Ideal.ofBits_def,
    Ideal.ofBits_zero_f32]
  rfl

/-- The cut row, read at the index the node sum visits. -/
theorem v61_at (j : Fin 128) (n : Fin 50000) :
    val_main_v61 (F := Ideal) a0 a1 a2 a3 a4 a5 a6 a7 a8 (idx_main_v62 (ix1 j) n)
      = Cert.Spec.act (fun j => a7 (ix1 j)) (fun j => a8 (ix1 j)) (combOf a0 a1 a2 a3 a4 a5 a6 n) j := by
  have e : idx_main_v62 (ix1 j) n = ix2 n j := by ix_eq2
  rw [e, v61_eq]

/-- The sum over all nodes, from zero. -/
theorem v62_eq (j : Fin 128) :
    val_main_v62 (F := Ideal) a0 a1 a2 a3 a4 a5 a6 a7 a8 (ix1 j)
      = Cert.Spec.pool (fun n => Cert.Spec.act (fun j => a7 (ix1 j)) (fun j => a8 (ix1 j))
          (combOf a0 a1 a2 a3 a4 a5 a6 n)) j := by
  rw [val_main_v62_apply, val_main_cst_9_apply]
  simp only [v61_at, Ideal.ofBits_def, Ideal.ofBits_zero_f32, zero_add]
  rfl

/-- The node mean: the quotient by the word for 50000 is the product with the real 1 / 50000. -/
theorem v65_eq (r : Fin 1) (k : Fin 128) :
    val_main_v65 (F := Ideal) a0 a1 a2 a3 a4 a5 a6 a7 a8 (ix2 r k)
      = Cert.Spec.pool (fun n => Cert.Spec.act (fun j => a7 (ix1 j)) (fun j => a8 (ix1 j))
          (combOf a0 a1 a2 a3 a4 a5 a6 n)) k * ((1 / 50000 : ℝ) : EReal) := by
  rw [val_main_v65_apply, val_main_v63_apply, val_main_v64_apply, val_main_cst_10_apply]
  have e : idx_main_v63 (ix2 r k) = ix1 k := by ix_eq1
  rw [e, v62_eq]
  simp only [Ideal.hostDivf_def, Ideal.ofBits_def, ofBits_50000]
  exact Ideal.div_coe (by norm_num) _

/-- One term of the last map's sum over `k`. -/
theorem v67_term (r : Fin 1) (j k : Fin 128) :
    val_main_v65 (F := Ideal) a0 a1 a2 a3 a4 a5 a6 a7 a8 (lidx_main_v67 (ix2 r j) k)
        * val_main_v66 (F := Ideal) a9 (ridx_main_v67 (ix2 r j) k)
      = (Cert.Spec.pool (fun n => Cert.Spec.act (fun j => a7 (ix1 j)) (fun j => a8 (ix1 j))
          (combOf a0 a1 a2 a3 a4 a5 a6 n)) k * ((1 / 50000 : ℝ) : EReal)) * a9 (ix2 j k) := by
  have e1 : lidx_main_v67 (ix2 r j) k = ix2 r k := by ix_eq2
  have e2 : idx_main_v66 (ridx_main_v67 (ix2 r j) k) = ix2 j k := by ix_eq2
  rw [e1, v65_eq, val_main_v66_apply, e2]

/-- The last map and its offset: the specification's `tail`. -/
theorem v69_eq (r : Fin 1) (j : Fin 128) :
    val_main_v69 (F := Ideal) a0 a1 a2 a3 a4 a5 a6 a7 a8 a9 a10 (ix2 r j)
      = Cert.Spec.tail (fun n k => aggOf (projVec a0 a2 a3) a1 (ix2 n k)) (fun n => degOf a1 (ix1 n))
          (fun n k => projVec a0 a2 a3 (ix2 n k)) (fun j k => a4 (ix2 j k)) (fun j => a5 (ix1 j))
          (fun j k => a6 (ix2 j k)) (fun j => a7 (ix1 j)) (fun j => a8 (ix1 j)) (fun j k => a9 (ix2 j k))
          (fun j => a10 (ix1 j)) j := by
  rw [val_main_v69_apply, val_main_v67_apply, val_main_v68_apply]
  have e3 : idx_main_v68 (ix2 r j) = ix1 j := by ix_eq1
  rw [e3, Ideal.addf_def]
  refine (congrArg (fun s => s + a10 (ix1 j))
    (Finset.sum_congr rfl fun k _ => v67_term a0 a1 a2 a3 a4 a5 a6 a7 a8 a9 r j k)).trans ?_
  rfl

/-- The reference's result, as a function of its eleven argument arrays, is the specification's `tail` at the
    projected rows `projVec a0 a2 a3` and their two segment sums. -/
theorem result_eq :
    val_main_v69 (F := Ideal) a0 a1 a2 a3 a4 a5 a6 a7 a8 a9 a10
      = fun i => Cert.Spec.tail (fun n k => aggOf (projVec a0 a2 a3) a1 (ix2 n k)) (fun n => degOf a1 (ix1 n))
          (fun n k => projVec a0 a2 a3 (ix2 n k)) (fun j k => a4 (ix2 j k)) (fun j => a5 (ix1 j))
          (fun j k => a6 (ix2 j k)) (fun j => a7 (ix1 j)) (fun j => a8 (ix1 j)) (fun j k => a9 (ix2 j k))
          (fun j => a10 (ix1 j)) (i 1) := by
  funext i
  rw [eq_ix2 i]
  exact v69_eq a0 a1 a2 a3 a4 a5 a6 a7 a8 a9 a10 (i 0) (i 1)

end Cert.ReferenceIdeal.RefValue

end
-- ==== Proof.Algebraic.lean ====
/-
  The two idealized programs end with equal results. The kernel program's result row is what the combination region
  leaves: the specification's tail — neighbourhood mean, two maps, row normalisation, cut, node mean, last map — of the
  buffers that region is entered with; those are, from the launch memory, the projection's rows, their segment sums
  and in-degrees by the reference's own gather and scatters, and the transposed weights. The reference's result term
  is the same tail of the same arrays. Run from memories that agree on the arguments, the two results are one row.
-/
import proofs.«114922_j51153060495543_2_alg».proof.Defs
import proofs.«114922_j51153060495543_2_alg».proof.Proof.Gen.KernelIdeal
import proofs.«114922_j51153060495543_2_alg».proof.Proof.Gen.ReferenceIdeal
import proofs.«114922_j51153060495543_2_alg».proof.Proof.Gen.Pre_finite_inputs
import proofs.«114922_j51153060495543_2_alg».proof.Proof.GlueI
import proofs.«114922_j51153060495543_2_alg».proof.Proof.ValueCombRow
import proofs.«114922_j51153060495543_2_alg».proof.Proof.RefValueC

noncomputable section

namespace Cert.Proof.Alg

open Idealize.ShloMosaic Idealize.ShloMosaic.TcCoe Idealize.SL.Sem Idealize.ShloMosaic.ValueIdx
open Cert.KernelIdeal Cert.KernelIdeal.Gen Cert.KernelIdeal.Val
open Cert.ReferenceIdeal.RefValue (aggOf degOf projVec)

section Kernel

variable (m : (ℓ : Loc nD τ sig) → Buf (Elt Ideal) ℓ) (c : Dev nD)

/-- The kernel program's result row, from its launch memory: the specification's tail of the projection's rows, their
    segment sums, the in-degrees and the weights. -/
theorem kernel_value :
    (Fr.dat1 (F := Ideal) (Fr.V3 m) c).arrAt 10 cfg1.N
      = fun i => Cert.Spec.tail
          (fun n k => aggOf (projVec (m ((c : Thread nD τ).loc main_arg0)) (m ((c : Thread nD τ).loc main_arg2)) (m ((c : Thread nD τ).loc main_arg3))) (m ((c : Thread nD τ).loc main_arg1)) (ix2 n k))
          (fun n => degOf (m ((c : Thread nD τ).loc main_arg1)) (ix1 n))
          (fun n k => projVec (m ((c : Thread nD τ).loc main_arg0)) (m ((c : Thread nD τ).loc main_arg2)) (m ((c : Thread nD τ).loc main_arg3)) (ix2 n k))
          (fun j k => (m ((c : Thread nD τ).loc main_arg4) : S128x128.Idx → EReal) (ix2 j k))
          (fun j => (m ((c : Thread nD τ).loc main_arg5) : S128.Idx → EReal) (ix1 j))
          (fun j k => (m ((c : Thread nD τ).loc main_arg6) : S128x128.Idx → EReal) (ix2 j k))
          (fun j => (m ((c : Thread nD τ).loc main_arg7) : S128.Idx → EReal) (ix1 j))
          (fun j => (m ((c : Thread nD τ).loc main_arg8) : S128.Idx → EReal) (ix1 j))
          (fun j k => (m ((c : Thread nD τ).loc main_arg9) : S128x128.Idx → EReal) (ix2 j k))
          (fun j => (m ((c : Thread nD τ).loc main_arg10) : S128.Idx → EReal) (ix1 j)) (i 1) := by
  rw [arr_comb (Fr.V3 m) c]
  funext i
  obtain ⟨u, q, rfl⟩ : ∃ (u : Fin 1) (q : Fin 128), i = ix2 u q := ⟨i 0, i 1, eq_ix2 i⟩
  rw [resRow_apply]
  have e1 : aggA (Fr.V3 m) c = fun n k => aggOf (projVec (m ((c : Thread nD τ).loc main_arg0)) (m ((c : Thread nD τ).loc main_arg2)) (m ((c : Thread nD τ).loc main_arg3))) (m ((c : Thread nD τ).loc main_arg1)) (ix2 n k) :=
    funext fun n => funext fun k => in_agg m c n k
  have e2 : degA (Fr.V3 m) c = fun n => degOf (m ((c : Thread nD τ).loc main_arg1)) (ix1 n) := funext fun n => in_deg m c n
  have e3 : hA (Fr.V3 m) c = fun n k => projVec (m ((c : Thread nD τ).loc main_arg0)) (m ((c : Thread nD τ).loc main_arg2)) (m ((c : Thread nD τ).loc main_arg3)) (ix2 n k) :=
    funext fun n => funext fun k => in_h m c n k
  have e4 : wlA (Fr.V3 m) c = fun j k => (m ((c : Thread nD τ).loc main_arg4) : S128x128.Idx → EReal) (ix2 j k) := funext fun j => funext fun k => in_wl m c k j
  have e5 : blA (Fr.V3 m) c = fun j => (m ((c : Thread nD τ).loc main_arg5) : S128.Idx → EReal) (ix1 j) :=
    funext fun j => congrFun (in_arg m c main_arg5 (by decide) (by decide) (by decide)) (ix1 j)
  have e6 : wrA (Fr.V3 m) c = fun j k => (m ((c : Thread nD τ).loc main_arg6) : S128x128.Idx → EReal) (ix2 j k) := funext fun j => funext fun k => in_wr m c k j
  have e7 : gA (Fr.V3 m) c = fun j => (m ((c : Thread nD τ).loc main_arg7) : S128.Idx → EReal) (ix1 j) :=
    funext fun j => congrFun (in_arg m c main_arg7 (by decide) (by decide) (by decide)) (ix1 j)
  have e8 : bA (Fr.V3 m) c = fun j => (m ((c : Thread nD τ).loc main_arg8) : S128.Idx → EReal) (ix1 j) :=
    funext fun j => congrFun (in_arg m c main_arg8 (by decide) (by decide) (by decide)) (ix1 j)
  have e9 : woA (Fr.V3 m) c = fun j k => (m ((c : Thread nD τ).loc main_arg9) : S128x128.Idx → EReal) (ix2 j k) := funext fun j => funext fun k => in_wo m c k j
  have e10 : boA (Fr.V3 m) c = fun j => (m ((c : Thread nD τ).loc main_arg10) : S128.Idx → EReal) (ix1 j) :=
    funext fun j => congrFun (in_arg m c main_arg10 (by decide) (by decide) (by decide)) (ix1 j)
  show Cert.Spec.tail (aggA (Fr.V3 m) c) (degA (Fr.V3 m) c) (hA (Fr.V3 m) c) (wlA (Fr.V3 m) c) (blA (Fr.V3 m) c) (wrA (Fr.V3 m) c)
      (gA (Fr.V3 m) c) (bA (Fr.V3 m) c) (woA (Fr.V3 m) c) (boA (Fr.V3 m) c) q = _
  rw [e1, e2, e3, e4, e5, e6, e7, e8, e9, e10]
  rfl

end Kernel

/-- At the exact instance the kernel program's result row and the reference's are one row of the arguments. -/
theorem algebraic : Cert.algebraic_KernelIdeal_ReferenceIdeal := by
  intro m ρ m' ρ' _ hagree
  refine ⟨_, Cert.KernelIdeal.Fr.run_val m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v69_eq m' c, Cert.ReferenceIdeal.RefValue.result_eq, h0, h1, h2, h3, h4, h5, h6, h7, h8, h9, h10]
  exact (kernel_value m c).symm

end Cert.Proof.Alg

end
-- ==== Proof.lean ====
/-
  The certificate's five claims for a graph layer — a 1024 → 128 projection with a cut, a neighbourhood mean by a
  gather and two segment sums, two 128 → 128 maps, a row normalisation, a second cut, the mean over all 50000 nodes
  and a last 128 → 128 map — written as two row-tiled kernel regions around host operations, against the same layer
  written with whole-array operations.

  The frames of the two kernel programs are the run of their four segments (host stretch, projection region, host
  stretch, combination region): the projection region's body is one store per tile; the combination region carries a
  scratch row of column sums from tile to tile, zeroed at the first and mapped to the result at the last. The
  reference's frame is its run with the result dropped. The kernel's one named constant stands for 1/50000. On the
  extended reals both programs compute one function of the arguments: the projection is the same sum of products, the
  gather and the scatters are the same operations on it, each tile's rows are the same row function, and the scratch
  row's 25 tile sums regroup into the one sum over all rows the reference takes (addition of extended reals is
  commutative and associative, so no finiteness is used); the reference's quotient by 50000 is the product with
  1/50000.
-/
import proofs.«114922_j51153060495543_2_alg».proof.Defs
import proofs.«114922_j51153060495543_2_alg».proof.Proof.Gen.Kernel
import proofs.«114922_j51153060495543_2_alg».proof.Proof.Gen.KernelIdeal
import proofs.«114922_j51153060495543_2_alg».proof.Proof.Gen.ReferenceIdeal
import proofs.«114922_j51153060495543_2_alg».proof.Proof.Gen.ReferenceIdeal.Read
import proofs.«114922_j51153060495543_2_alg».proof.Proof.Gen.Pre_finite_inputs
import proofs.«114922_j51153060495543_2_alg».proof.Proof.FrameRunB
import proofs.«114922_j51153060495543_2_alg».proof.Proof.FrameRunI
import proofs.«114922_j51153060495543_2_alg».proof.Proof.Algebraic
import Idealize.ShloMosaic.Adequacy
import Idealize.ShloMosaic.Init

noncomputable section

namespace Cert.Proof

open Idealize.ShloMosaic Idealize.SL.Sem

/-- The word-level kernel program runs and leaves its arguments as launched. -/
theorem frame_p : Cert.frame_Kernel := fun m ρ _ => Cert.Kernel.Fr.frame m ρ

/-- So does its idealization. -/
theorem frame_pi : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the scale of the node mean is named, and the name stands for 1/50000. -/
theorem preserves : Cert.preserves_Kernel_KernelIdeal :=
  IdealRules.named_const.statement Cert.KernelIdeal.κ "inv_50000" .f32 0x37A7C5AC#32 ((1 / 50000 : ℝ) : EReal) rfl

theorem claim : Cert.Claim := ⟨Cert.Kernel.Gen.facts, Cert.KernelIdeal.Gen.facts, Cert.ReferenceIdeal.Gen.facts, Cert.Pre_finite_inputs.Gen.facts,
  frame_p, frame_pi, frame_ri, preserves, Cert.Proof.Alg.algebraic⟩

end Cert.Proof

end
